-- ==== Defs.lean ====
def Pre_Kernel [hPre_finite_inputs : Cert.Pre_finite_inputs.Facts] (m : (ℓ : Loc Cert.Kernel.nD Cert.Kernel.τ Cert.Kernel.sig) → Buf (Elt Bits) ℓ) : Prop :=
  ∀ c : Dev Cert.Kernel.nD,
    (Cert.Pre_finite_inputs.fn (F := Bits) (m ((c.tc : Thread Cert.Kernel.nD Cert.Kernel.τ).loc Cert.Kernel.main_arg0)) (m ((c.tc : Thread Cert.Kernel.nD Cert.Kernel.τ).loc Cert.Kernel.main_arg1)) (m ((c.tc : Thread Cert.Kernel.nD Cert.Kernel.τ).loc Cert.Kernel.main_arg2))) = (fun _ => 1#1)

def Pre_KernelIdeal [hPre_finite_inputs : Cert.Pre_finite_inputs.Facts] (m : (ℓ : Loc Cert.KernelIdeal.nD Cert.KernelIdeal.τ Cert.KernelIdeal.sig) → Buf (Elt Ideal) ℓ) : Prop :=
  ∀ c : Dev Cert.KernelIdeal.nD,
    (Cert.Pre_finite_inputs.fn (F := Ideal) (m ((c.tc : Thread Cert.KernelIdeal.nD Cert.KernelIdeal.τ).loc Cert.KernelIdeal.main_arg0)) (m ((c.tc : Thread Cert.KernelIdeal.nD Cert.KernelIdeal.τ).loc Cert.KernelIdeal.main_arg1)) (m ((c.tc : Thread Cert.KernelIdeal.nD Cert.KernelIdeal.τ).loc Cert.KernelIdeal.main_arg2))) = (fun _ => 1#1)

def Pre_ReferenceIdeal [hPre_finite_inputs : Cert.Pre_finite_inputs.Facts] (m : (ℓ : Loc Cert.ReferenceIdeal.nD Cert.ReferenceIdeal.τ Cert.ReferenceIdeal.sig) → Buf (Elt Ideal) ℓ) : Prop :=
  ∀ c : Dev Cert.ReferenceIdeal.nD,
    (Cert.Pre_finite_inputs.fn (F := Ideal) (m ((c.tc : Thread Cert.ReferenceIdeal.nD Cert.ReferenceIdeal.τ).loc Cert.ReferenceIdeal.main_arg0)) (m ((c.tc : Thread Cert.ReferenceIdeal.nD Cert.ReferenceIdeal.τ).loc Cert.ReferenceIdeal.main_arg1)) (m ((c.tc : Thread Cert.ReferenceIdeal.nD Cert.ReferenceIdeal.τ).loc Cert.ReferenceIdeal.main_arg2))) = (fun _ => 1#1)

def frame_Kernel [hKernel : Cert.Kernel.Facts] [hPre_finite_inputs : Cert.Pre_finite_inputs.Facts] : Prop :=
  ∀ (m : (ℓ : Loc Cert.Kernel.nD Cert.Kernel.τ Cert.Kernel.sig) → Buf (Elt Bits) ℓ) (g : Dev Cert.Kernel.nD → PrngReg), Pre_Kernel m →
    θ_run (Cert.Kernel.defs (F := Bits)) (onTc (τ := Cert.Kernel.τ) (Cert.Kernel.main (F := Bits))) ⟨m, fun _ => 0, g⟩ (fun r => ∀ c : Dev Cert.Kernel.nD,
      r.2.mem ((c.tc : Thread Cert.Kernel.nD Cert.Kernel.τ).loc Cert.Kernel.main_arg0) = m ((c.tc : Thread Cert.Kernel.nD Cert.Kernel.τ).loc Cert.Kernel.main_arg0)
      ∧ r.2.mem ((c.tc : Thread Cert.Kernel.nD Cert.Kernel.τ).loc Cert.Kernel.main_arg1) = m ((c.tc : Thread Cert.Kernel.nD Cert.Kernel.τ).loc Cert.Kernel.main_arg1)
      ∧ r.2.mem ((c.tc : Thread Cert.Kernel.nD Cert.Kernel.τ).loc Cert.Kernel.main_arg2) = m ((c.tc : Thread Cert.Kernel.nD Cert.Kernel.τ).loc Cert.Kernel.main_arg2))

def frame_KernelIdeal [hKernelIdeal : Cert.KernelIdeal.Facts] [hPre_finite_inputs : Cert.Pre_finite_inputs.Facts] : Prop :=
  ∀ (m : (ℓ : Loc Cert.KernelIdeal.nD Cert.KernelIdeal.τ Cert.KernelIdeal.sig) → Buf (Elt Ideal) ℓ) (g : Dev Cert.KernelIdeal.nD → PrngReg), Pre_KernelIdeal m →
    θ_run (Cert.KernelIdeal.defs (F := Ideal)) (onTc (τ := Cert.KernelIdeal.τ) (Cert.KernelIdeal.main (F := Ideal))) ⟨m, fun _ => 0, g⟩ (fun r => ∀ c : Dev Cert.KernelIdeal.nD,
      r.2.mem ((c.tc : Thread Cert.KernelIdeal.nD Cert.KernelIdeal.τ).loc Cert.KernelIdeal.main_arg0) = m ((c.tc : Thread Cert.KernelIdeal.nD Cert.KernelIdeal.τ).loc Cert.KernelIdeal.main_arg0)
      ∧ r.2.mem ((c.tc : Thread Cert.KernelIdeal.nD Cert.KernelIdeal.τ).loc Cert.KernelIdeal.main_arg1) = m ((c.tc : Thread Cert.KernelIdeal.nD Cert.KernelIdeal.τ).loc Cert.KernelIdeal.main_arg1)
      ∧ r.2.mem ((c.tc : Thread Cert.KernelIdeal.nD Cert.KernelIdeal.τ).loc Cert.KernelIdeal.main_arg2) = m ((c.tc : Thread Cert.KernelIdeal.nD Cert.KernelIdeal.τ).loc Cert.KernelIdeal.main_arg2))

def frame_ReferenceIdeal [hReferenceIdeal : Cert.ReferenceIdeal.Facts] [hPre_finite_inputs : Cert.Pre_finite_inputs.Facts] : Prop :=
  ∀ (m : (ℓ : Loc Cert.ReferenceIdeal.nD Cert.ReferenceIdeal.τ Cert.ReferenceIdeal.sig) → Buf (Elt Ideal) ℓ) (g : Dev Cert.ReferenceIdeal.nD → PrngReg), Pre_ReferenceIdeal m →
    θ_run (Cert.ReferenceIdeal.defs (F := Ideal)) (onTc (τ := Cert.ReferenceIdeal.τ) (Cert.ReferenceIdeal.main (F := Ideal))) ⟨m, fun _ => 0, g⟩ (fun r => ∀ c : Dev Cert.ReferenceIdeal.nD,
      r.2.mem ((c.tc : Thread Cert.ReferenceIdeal.nD Cert.ReferenceIdeal.τ).loc Cert.ReferenceIdeal.main_arg0) = m ((c.tc : Thread Cert.ReferenceIdeal.nD Cert.ReferenceIdeal.τ).loc Cert.ReferenceIdeal.main_arg0)
      ∧ r.2.mem ((c.tc : Thread Cert.ReferenceIdeal.nD Cert.ReferenceIdeal.τ).loc Cert.ReferenceIdeal.main_arg1) = m ((c.tc : Thread Cert.ReferenceIdeal.nD Cert.ReferenceIdeal.τ).loc Cert.ReferenceIdeal.main_arg1)
      ∧ r.2.mem ((c.tc : Thread Cert.ReferenceIdeal.nD Cert.ReferenceIdeal.τ).loc Cert.ReferenceIdeal.main_arg2) = m ((c.tc : Thread Cert.ReferenceIdeal.nD Cert.ReferenceIdeal.τ).loc Cert.ReferenceIdeal.main_arg2))

def preserves_Kernel_KernelIdeal : Prop :=
  True

def algebraic_KernelIdeal_ReferenceIdeal [hKernelIdeal : Cert.KernelIdeal.Facts] [hReferenceIdeal : Cert.ReferenceIdeal.Facts] [hPre_finite_inputs : Cert.Pre_finite_inputs.Facts] : Prop :=
  ∀ (m : (ℓ : Loc Cert.KernelIdeal.nD Cert.KernelIdeal.τ Cert.KernelIdeal.sig) → Buf (Elt Ideal) ℓ) (g : Dev Cert.KernelIdeal.nD → PrngReg)
    (m' : (ℓ : Loc Cert.ReferenceIdeal.nD Cert.ReferenceIdeal.τ Cert.ReferenceIdeal.sig) → Buf (Elt Ideal) ℓ) (g' : Dev Cert.ReferenceIdeal.nD → PrngReg), Pre_KernelIdeal m →
    (∀ c : Dev Cert.KernelIdeal.nD,
      m' ((c.tc : Thread Cert.ReferenceIdeal.nD Cert.ReferenceIdeal.τ).loc Cert.ReferenceIdeal.main_arg0) = m ((c.tc : Thread Cert.KernelIdeal.nD Cert.KernelIdeal.τ).loc Cert.KernelIdeal.main_arg0)
      ∧ m' ((c.tc : Thread Cert.ReferenceIdeal.nD Cert.ReferenceIdeal.τ).loc Cert.ReferenceIdeal.main_arg1) = m ((c.tc : Thread Cert.KernelIdeal.nD Cert.KernelIdeal.τ).loc Cert.KernelIdeal.main_arg1)
      ∧ m' ((c.tc : Thread Cert.ReferenceIdeal.nD Cert.ReferenceIdeal.τ).loc Cert.ReferenceIdeal.main_arg2) = m ((c.tc : Thread Cert.KernelIdeal.nD Cert.KernelIdeal.τ).loc Cert.KernelIdeal.main_arg2)) →
    ∃ (v0 : (c : Dev Cert.KernelIdeal.nD) → Buf (Elt Ideal) ((c.tc : Thread Cert.KernelIdeal.nD Cert.KernelIdeal.τ).loc Cert.KernelIdeal.main_v14)),
      θ_run (Cert.KernelIdeal.defs (F := Ideal)) (onTc (τ := Cert.KernelIdeal.τ) (Cert.KernelIdeal.main (F := Ideal))) ⟨m, fun _ => 0, g⟩ (fun r => ∀ c : Dev Cert.KernelIdeal.nD,
          r.2.mem ((c.tc : Thread Cert.KernelIdeal.nD Cert.KernelIdeal.τ).loc Cert.KernelIdeal.main_v14) = v0 c
          ∧ r.2.mem ((c.tc : Thread Cert.KernelIdeal.nD Cert.KernelIdeal.τ).loc Cert.KernelIdeal.main_arg0) = m ((c.tc : Thread Cert.KernelIdeal.nD Cert.KernelIdeal.τ).loc Cert.KernelIdeal.main_arg0)
          ∧ r.2.mem ((c.tc : Thread Cert.KernelIdeal.nD Cert.KernelIdeal.τ).loc Cert.KernelIdeal.main_arg1) = m ((c.tc : Thread Cert.KernelIdeal.nD Cert.KernelIdeal.τ).loc Cert.KernelIdeal.main_arg1)
          ∧ r.2.mem ((c.tc : Thread Cert.KernelIdeal.nD Cert.KernelIdeal.τ).loc Cert.KernelIdeal.main_arg2) = m ((c.tc : Thread Cert.KernelIdeal.nD Cert.KernelIdeal.τ).loc Cert.KernelIdeal.main_arg2))
      ∧ θ_run (Cert.ReferenceIdeal.defs (F := Ideal)) (onTc (τ := Cert.ReferenceIdeal.τ) (Cert.ReferenceIdeal.main (F := Ideal))) ⟨m', fun _ => 0, g'⟩ (fun r => ∀ c : Dev Cert.ReferenceIdeal.nD,
          r.2.mem ((c.tc : Thread Cert.ReferenceIdeal.nD Cert.ReferenceIdeal.τ).loc Cert.ReferenceIdeal.main_v27) = v0 c
          ∧ r.2.mem ((c.tc : Thread Cert.ReferenceIdeal.nD Cert.ReferenceIdeal.τ).loc Cert.ReferenceIdeal.main_arg0) = m' ((c.tc : Thread Cert.ReferenceIdeal.nD Cert.ReferenceIdeal.τ).loc Cert.ReferenceIdeal.main_arg0)
          ∧ r.2.mem ((c.tc : Thread Cert.ReferenceIdeal.nD Cert.ReferenceIdeal.τ).loc Cert.ReferenceIdeal.main_arg1) = m' ((c.tc : Thread Cert.ReferenceIdeal.nD Cert.ReferenceIdeal.τ).loc Cert.ReferenceIdeal.main_arg1)
          ∧ r.2.mem ((c.tc : Thread Cert.ReferenceIdeal.nD Cert.ReferenceIdeal.τ).loc Cert.ReferenceIdeal.main_arg2) = m' ((c.tc : Thread Cert.ReferenceIdeal.nD Cert.ReferenceIdeal.τ).loc Cert.ReferenceIdeal.main_arg2))

def Claim : Prop :=
  ∃ (hKernel : Cert.Kernel.Facts) (hKernelIdeal : Cert.KernelIdeal.Facts) (hReferenceIdeal : Cert.ReferenceIdeal.Facts) (hPre_finite_inputs : Cert.Pre_finite_inputs.Facts),
    frame_Kernel (hKernel := hKernel) (hPre_finite_inputs := hPre_finite_inputs)
    ∧ frame_KernelIdeal (hKernelIdeal := hKernelIdeal) (hPre_finite_inputs := hPre_finite_inputs)
    ∧ frame_ReferenceIdeal (hReferenceIdeal := hReferenceIdeal) (hPre_finite_inputs := hPre_finite_inputs)
    ∧ preserves_Kernel_KernelIdeal
    ∧ algebraic_KernelIdeal_ReferenceIdeal (hKernelIdeal := hKernelIdeal) (hReferenceIdeal := hReferenceIdeal) (hPre_finite_inputs := hPre_finite_inputs)
-- ==== Pre_finite_inputs.lean ====
abbrev S4x2048x2048 : Shape := ⟨3, ![4, 2048, 2048]⟩
abbrev S2048x2048 : Shape := ⟨2, ![2048, 2048]⟩
abbrev S2048 : Shape := ⟨1, ![2048]⟩
abbrev S_ : Shape := ⟨0, ![]⟩

class Facts : Prop where
  bcast_S_S4x2048x2048 : S_.BroadcastsInDim S4x2048x2048 (![] : Fin 0 → Fin S4x2048x2048.rank)
  reducesTo_S4x2048x2048_S_d0_1_2 : S4x2048x2048.ReducesTo [0, 1, 2] S_
  h_S_ : 0 < S_.numel
  bcast_S_S2048x2048 : S_.BroadcastsInDim S2048x2048 (![] : Fin 0 → Fin S2048x2048.rank)
  reducesTo_S2048x2048_S_d0_1 : S2048x2048.ReducesTo [0, 1] S_
  bcast_S_S2048 : S_.BroadcastsInDim S2048 (![] : Fin 0 → Fin S2048.rank)
  reducesTo_S2048_S_d0 : S2048.ReducesTo [0] S_

variable [Facts]

def fn {F : FTy → Type} [FloatOps F] (main_arg0 : FVec F S4x2048x2048 .f32) (main_arg1 : FVec F S2048x2048 .f32) (main_arg2 : FVec F S2048 .f32) : IVec S_ 1 :=
  let main_v0 : FVec F S4x2048x2048 .f32 := Host.absf main_arg0
  let main_cst : FVec F S_ .f32 := constant S_ .f32 0x7F800000#32
  let main_v1 : FVec F S4x2048x2048 .f32 := broadcastInDim S4x2048x2048 ![] bcast_S_S4x2048x2048 main_cst
  let main_v2 : IVec S4x2048x2048 1 := cmpf .olt main_v0 main_v1
  let main_c : IVec S_ 1 := constantI S_ 1 1#1
  let main_v3 : IVec S_ 1 := (fun x v => Host.reduce IntOp.andi x v reducesTo_S4x2048x2048_S_d0_1_2 h_S_) main_v2 main_c
  let main_v4 : FVec F S2048x2048 .f32 := Host.absf main_arg1
  let main_cst_0 : FVec F S_ .f32 := constant S_ .f32 0x7F800000#32
  let main_v5 : FVec F S2048x2048 .f32 := broadcastInDim S2048x2048 ![] bcast_S_S2048x2048 main_cst_0
  let main_v6 : IVec S2048x2048 1 := cmpf .olt main_v4 main_v5
  let main_c_1 : IVec S_ 1 := constantI S_ 1 1#1
  let main_v7 : IVec S_ 1 := (fun x v => Host.reduce IntOp.andi x v reducesTo_S2048x2048_S_d0_1 h_S_) main_v6 main_c_1
  let main_v8 : IVec S_ 1 := andi main_v3 main_v7
  let main_v9 : FVec F S2048 .f32 := Host.absf main_arg2
  let main_cst_2 : FVec F S_ .f32 := constant S_ .f32 0x7F800000#32
  let main_v10 : FVec F S2048 .f32 := broadcastInDim S2048 ![] bcast_S_S2048 main_cst_2
  let main_v11 : IVec S2048 1 := cmpf .olt main_v9 main_v10
  let main_c_3 : IVec S_ 1 := constantI S_ 1 1#1
  let main_v12 : IVec S_ 1 := (fun x v => Host.reduce IntOp.andi x v reducesTo_S2048_S_d0 h_S_) main_v11 main_c_3
  let main_v13 : IVec S_ 1 := andi main_v8 main_v12
  main_v13
-- ==== Kernel.lean ====
abbrev S4x2048x2048 : Shape := ⟨3, ![4, 2048, 2048]⟩
abbrev S2048x2048 : Shape := ⟨2, ![2048, 2048]⟩
abbrev S2048 : Shape := ⟨1, ![2048]⟩
abbrev S_ : Shape := ⟨0, ![]⟩
abbrev S1x1 : Shape := ⟨2, ![1, 1]⟩
abbrev S1x2048 : Shape := ⟨2, ![1, 2048]⟩
abbrev S8192x2048 : Shape := ⟨2, ![8192, 2048]⟩
abbrev S512x2048 : Shape := ⟨2, ![512, 2048]⟩
abbrev S512 : Shape := ⟨1, ![512]⟩
abbrev S512x1 : Shape := ⟨2, ![512, 1]⟩

abbrev nBuf : Space → Nat
  | .hbm => 29
  | .vmem => 7
  | .smem => 0
  | _ => 0

abbrev bufTy : (tb : Table) → Fin (tcTables nBuf tb) → BufTy
  | .hbm, ⟨0, _⟩ => ⟨S4x2048x2048, .f32⟩
  | .hbm, ⟨1, _⟩ => ⟨S2048x2048, .f32⟩
  | .hbm, ⟨2, _⟩ => ⟨S2048, .f32⟩
  | .hbm, ⟨3, _⟩ => ⟨S2048x2048, .f32⟩
  | .hbm, ⟨4, _⟩ => ⟨S_, .f32⟩
  | .hbm, ⟨5, _⟩ => ⟨S_, .f32⟩
  | .hbm, ⟨6, _⟩ => ⟨S_, .f32⟩
  | .hbm, ⟨7, _⟩ => ⟨S_, .f32⟩
  | .hbm, ⟨8, _⟩ => ⟨S_, .f32⟩
  | .hbm, ⟨9, _⟩ => ⟨S_, .f32⟩
  | .hbm, ⟨10, _⟩ => ⟨S_, .f32⟩
  | .hbm, ⟨11, _⟩ => ⟨S2048x2048, .f32⟩
  | .hbm, ⟨12, _⟩ => ⟨S2048x2048, .f32⟩
  | .hbm, ⟨13, _⟩ => ⟨S2048x2048, .f32⟩
  | .hbm, ⟨14, _⟩ => ⟨S_, .f32⟩
  | .hbm, ⟨15, _⟩ => ⟨S_, .f32⟩
  | .hbm, ⟨16, _⟩ => ⟨S_, .f32⟩
  | .hbm, ⟨17, _⟩ => ⟨S2048x2048, .f32⟩
  | .hbm, ⟨18, _⟩ => ⟨S2048x2048, .f32⟩
  | .hbm, ⟨19, _⟩ => ⟨S_, .f32⟩
  | .hbm, ⟨20, _⟩ => ⟨S2048x2048, .f32⟩
  | .hbm, ⟨21, _⟩ => ⟨S2048x2048, .f32⟩
  | .hbm, ⟨22, _⟩ => ⟨S2048x2048, .f32⟩
  | .hbm, ⟨23, _⟩ => ⟨S2048x2048, .bf16⟩
  | .hbm, ⟨24, _⟩ => ⟨S1x1, .f32⟩
  | .hbm, ⟨25, _⟩ => ⟨S1x2048, .f32⟩
  | .hbm, ⟨26, _⟩ => ⟨S8192x2048, .f32⟩
  | .hbm, ⟨27, _⟩ => ⟨S8192x2048, .f32⟩
  | .hbm, ⟨28, _⟩ => ⟨S4x2048x2048, .f32⟩
  | .local _ .vmem, ⟨0, _⟩ => ⟨S512x2048, .f32⟩
  | .local _ .vmem, ⟨1, _⟩ => ⟨S512x2048, .f32⟩
  | .local _ .vmem, ⟨2, _⟩ => ⟨S2048x2048, .bf16⟩
  | .local _ .vmem, ⟨3, _⟩ => ⟨S1x2048, .f32⟩
  | .local _ .vmem, ⟨4, _⟩ => ⟨S1x1, .f32⟩
  | .local _ .vmem, ⟨5, _⟩ => ⟨S512x2048, .f32⟩
  | .local _ .vmem, ⟨6, _⟩ => ⟨S512x2048, .f32⟩
  | _, _ => ⟨S4x2048x2048, .f32⟩

abbrev bufScoped : (cs : CoreSpace) → Fin (nBuf (.core cs)) → Bool
  | .vmem, ⟨0, _⟩ => true
  | .vmem, ⟨1, _⟩ => true
  | .vmem, ⟨2, _⟩ => true
  | .vmem, ⟨3, _⟩ => true
  | .vmem, ⟨4, _⟩ => true
  | .vmem, ⟨5, _⟩ => true
  | .vmem, ⟨6, _⟩ => true
  | _, _ => false

abbrev semScoped : Fin 0 → Bool
  | ⟨_, h⟩ => absurd h (Nat.not_lt_zero _)

abbrev dmaSemScoped : Fin 7 → Bool
  | ⟨0, _⟩ => true
  | ⟨1, _⟩ => true
  | ⟨2, _⟩ => true
  | ⟨3, _⟩ => true
  | ⟨4, _⟩ => true
  | ⟨5, _⟩ => true
  | ⟨6, _⟩ => true
  | _ => false

abbrev sig : RefSig :=
  ofTc nBuf bufTy 0 7 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_v0 : Ref sig .tc := ⟨.hbm, 3, rfl⟩
abbrev main_cst : Ref sig .tc := ⟨.hbm, 4, rfl⟩
abbrev main_v1 : Ref sig .tc := ⟨.hbm, 5, rfl⟩
abbrev main_cst_0 : Ref sig .tc := ⟨.hbm, 6, rfl⟩
abbrev main_v2 : Ref sig .tc := ⟨.hbm, 7, rfl⟩
abbrev main_cst_1 : Ref sig .tc := ⟨.hbm, 8, rfl⟩
abbrev main_call0_v0 : Ref sig .tc := ⟨.hbm, 9, rfl⟩
abbrev main_v3 : Ref sig .tc := ⟨.hbm, 10, rfl⟩
abbrev main_v4 : Ref sig .tc := ⟨.hbm, 11, rfl⟩
abbrev main_v5 : Ref sig .tc := ⟨.hbm, 12, rfl⟩
abbrev main_v6 : Ref sig .tc := ⟨.hbm, 13, rfl⟩
abbrev main_cst_2 : Ref sig .tc := ⟨.hbm, 14, rfl⟩
abbrev main_cst_3 : Ref sig .tc := ⟨.hbm, 15, rfl⟩
abbrev main_call2_v0 : Ref sig .tc := ⟨.hbm, 16, rfl⟩
abbrev main_call2_v1 : Ref sig .tc := ⟨.hbm, 17, rfl⟩
abbrev main_call2_v2 : Ref sig .tc := ⟨.hbm, 18, rfl⟩
abbrev main_call2_v3 : Ref sig .tc := ⟨.hbm, 19, rfl⟩
abbrev main_call2_v4 : Ref sig .tc := ⟨.hbm, 20, rfl⟩
abbrev main_v7 : Ref sig .tc := ⟨.hbm, 21, rfl⟩
abbrev main_v8 : Ref sig .tc := ⟨.hbm, 22, rfl⟩
abbrev main_v9 : Ref sig .tc := ⟨.hbm, 23, rfl⟩
abbrev main_v10 : Ref sig .tc := ⟨.hbm, 24, rfl⟩
abbrev main_v11 : Ref sig .tc := ⟨.hbm, 25, rfl⟩
abbrev main_v12 : Ref sig .tc := ⟨.hbm, 26, rfl⟩
abbrev main_v13 : Ref sig .tc := ⟨.hbm, 27, rfl⟩
abbrev main_v14 : Ref sig .tc := ⟨.hbm, 28, rfl⟩
abbrev cc0_stg0_0 : Ref sig .tc := ⟨.vmem, 0, rfl⟩
abbrev cc0_stg0_1 : Ref sig .tc := ⟨.vmem, 1, rfl⟩
abbrev cc0_stg1_0 : Ref sig .tc := ⟨.vmem, 2, rfl⟩
abbrev cc0_stg2_0 : Ref sig .tc := ⟨.vmem, 3, rfl⟩
abbrev cc0_stg3_0 : Ref sig .tc := ⟨.vmem, 4, rfl⟩
abbrev cc0_stg4_0 : Ref sig .tc := ⟨.vmem, 5, rfl⟩
abbrev cc0_stg4_1 : Ref sig .tc := ⟨.vmem, 6, rfl⟩
abbrev cc0_sem0_0 : DmaSem sig := 0
abbrev cc0_sem0_1 : DmaSem sig := 1
abbrev cc0_sem1_0 : DmaSem sig := 2
abbrev cc0_sem2_0 : DmaSem sig := 3
abbrev cc0_sem3_0 : DmaSem sig := 4
abbrev cc0_sem4_0 : DmaSem sig := 5
abbrev cc0_sem4_1 : DmaSem sig := 6

abbrev nD : Nat := 1
abbrev τ : Topo := Topo.v7x

variable {F : FTy → Type} [FloatOps F]

abbrev grid0 : Pipeline.Grid := ⟨1, ![16], ![false]⟩

def cc0_transform_0 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

def cc0_transform_1 (i : grid0.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc0_transform_2 (i : grid0.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc0_transform_3 (i : grid0.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc0_transform_4 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

abbrev stage0_0 : Fin 2 → Memref sig .tc .vmem S512x2048 .f32 := fun | 0 => Memref.whole cc0_stg0_0 | 1 => Memref.whole cc0_stg0_1 | ⟨_ + 2, h⟩ => absurd h (Nat.not_lt.2 (Nat.le_add_left _ _))
abbrev sem0_0 : Fin 2 → DmaSem sig := fun | 0 => cc0_sem0_0 | 1 => cc0_sem0_1 | ⟨_ + 2, h⟩ => absurd h (Nat.not_lt.2 (Nat.le_add_left _ _))
abbrev reads0_0 : Fin grid0.rank → Bool := ![true]

abbrev stage0_1 : Fin 1 → Memref sig .tc .vmem S2048x2048 .bf16 := fun | 0 => Memref.whole cc0_stg1_0 | ⟨_ + 1, h⟩ => absurd h (Nat.not_lt.2 (Nat.le_add_left _ _))
abbrev sem0_1 : Fin 1 → DmaSem sig := fun | 0 => cc0_sem1_0 | ⟨_ + 1, h⟩ => absurd h (Nat.not_lt.2 (Nat.le_add_left _ _))
abbrev reads0_1 : Fin grid0.rank → Bool := ![false]

abbrev stage0_2 : Fin 1 → Memref sig .tc .vmem S1x2048 .f32 := fun | 0 => Memref.whole cc0_stg2_0 | ⟨_ + 1, h⟩ => absurd h (Nat.not_lt.2 (Nat.le_add_left _ _))
abbrev sem0_2 : Fin 1 → DmaSem sig := fun | 0 => cc0_sem2_0 | ⟨_ + 1, h⟩ => absurd h (Nat.not_lt.2 (Nat.le_add_left _ _))
abbrev reads0_2 : Fin grid0.rank → Bool := ![false]

abbrev stage0_3 : Fin 1 → Memref sig .tc .vmem S1x1 .f32 := fun | 0 => Memref.whole cc0_stg3_0 | ⟨_ + 1, h⟩ => absurd h (Nat.not_lt.2 (Nat.le_add_left _ _))
abbrev sem0_3 : Fin 1 → DmaSem sig := fun | 0 => cc0_sem3_0 | ⟨_ + 1, h⟩ => absurd h (Nat.not_lt.2 (Nat.le_add_left _ _))
abbrev reads0_3 : Fin grid0.rank → Bool := ![false]

abbrev stage0_4 : Fin 2 → Memref sig .tc .vmem S512x2048 .f32 := fun | 0 => Memref.whole cc0_stg4_0 | 1 => Memref.whole cc0_stg4_1 | ⟨_ + 2, h⟩ => absurd h (Nat.not_lt.2 (Nat.le_add_left _ _))
abbrev sem0_4 : Fin 2 → DmaSem sig := fun | 0 => cc0_sem4_0 | 1 => cc0_sem4_1 | ⟨_ + 2, h⟩ => absurd h (Nat.not_lt.2 (Nat.le_add_left _ _))
abbrev reads0_4 : Fin grid0.rank → Bool := ![true]

class Facts₀ : Prop where
  reducesTo_S2048x2048_S_d0_1 : S2048x2048.ReducesTo [0, 1] S_
  h_S_ : 0 < S_.numel
  bcast_S_S2048x2048 : S_.BroadcastsInDim S2048x2048 (![] : Fin 0 → Fin S2048x2048.rank)
  transposes_S2048x2048_S2048x2048_1_0 : S2048x2048.Transposes [1, 0] S2048x2048
  bitsLt_bf16_f32 : FTy.bits .bf16 < FTy.bits .f32
  shapeCasts_S_S1x1 : S_.ShapeCasts S1x1
  shapeCasts_S2048_S1x2048 : S2048.ShapeCasts S1x2048
  shapeCasts_S4x2048x2048_S8192x2048 : S4x2048x2048.ShapeCasts S8192x2048
  inb_S512x2048_S512x2048_0_0 : ∀ a, (![0, 0] : Fin 2 → Nat) a + S512x2048.size a ≤ S512x2048.size a
  h_S512x2048 : 0 < S512x2048.numel
  shapeCasts_S512x2048_S512x2048 : S512x2048.ShapeCasts S512x2048
  reduces_S512x2048_S512 : S512x2048.Reduces [1] S512
  shapeCasts_S512_S512x1 : S512.ShapeCasts S512x1
  broadcasts_S512x1_S512x2048 : S512x1.Broadcasts S512x2048
  inb_S2048x2048_S2048x2048_0_0 : ∀ a, (![0, 0] : Fin 2 → Nat) a + S2048x2048.size a ≤ S2048x2048.size a
  h_S2048x2048 : 0 < S2048x2048.numel
  shapeCasts_S2048x2048_S2048x2048 : S2048x2048.ShapeCasts S2048x2048
  inb_S1x2048_S1x2048_0_0 : ∀ a, (![0, 0] : Fin 2 → Nat) a + S1x2048.size a ≤ S1x2048.size a
  h_S1x2048 : 0 < S1x2048.numel
  shapeCasts_S1x2048_S1x2048 : S1x2048.ShapeCasts S1x2048
  broadcasts_S1x2048_S512x2048 : S1x2048.Broadcasts S512x2048
  inb_S1x1_S1x1_0_0 : ∀ a, (![0, 0] : Fin 2 → Nat) a + S1x1.size a ≤ S1x1.size a
  h_S1x1 : 0 < S1x1.numel
  inpos_S1x1_p0_0 : ∀ a, (![0, 0] : Fin 2 → Nat) a < S1x1.size a
  shapeCasts_S8192x2048_S4x2048x2048 : S8192x2048.ShapeCasts S4x2048x2048
  dot_S512x2048_S2048x2048_S512x2048_1_0_0_1_n_n_wf : DotDims.WF S512x2048 S2048x2048 S512x2048 [1] [0] [0] [1] [] []
  hrank0 : 0 < grid0.rank
  hstage0_0 : ∀ j, (stage0_0 j).IsWhole
  nbuf0_0 : grid0.bufCount reads0_0 false = 2
  hreads0_0 : ∀ i i' : grid0.Coords, (∀ a, reads0_0 a = true → i a = i' a) → cc0_transform_0 i = cc0_transform_0 i'
  hinb0_0 : ∀ (i : grid0.Coords) a, (cc0_transform_0 i a + 1) * S512x2048.size a ≤ S8192x2048.size a
  hwx0_0 : ∀ i : grid0.Coords, EltTy.bits .f32 = 32 ∨ (Rect.block (s := S8192x2048) S512x2048.size (cc0_transform_0 i) (hinb0_0 i)).WholeWords (EltTy.packing .f32)
  hstage0_1 : ∀ j, (stage0_1 j).IsWhole
  nbuf0_1 : grid0.bufCount reads0_1 true = 1
  hreads0_1 : ∀ i i' : grid0.Coords, (∀ a, reads0_1 a = true → i a = i' a) → cc0_transform_1 i = cc0_transform_1 i'
  hinb0_1 : ∀ (i : grid0.Coords) a, (cc0_transform_1 i a + 1) * S2048x2048.size a ≤ S2048x2048.size a
  hwx0_1 : ∀ i : grid0.Coords, EltTy.bits .bf16 = 32 ∨ (Rect.block (s := S2048x2048) S2048x2048.size (cc0_transform_1 i) (hinb0_1 i)).WholeWords (EltTy.packing .bf16)
  hstage0_2 : ∀ j, (stage0_2 j).IsWhole
  nbuf0_2 : grid0.bufCount reads0_2 true = 1
  hreads0_2 : ∀ i i' : grid0.Coords, (∀ a, reads0_2 a = true → i a = i' a) → cc0_transform_2 i = cc0_transform_2 i'
  hinb0_2 : ∀ (i : grid0.Coords) a, (cc0_transform_2 i a + 1) * S1x2048.size a ≤ S1x2048.size a
  hwx0_2 : ∀ i : grid0.Coords, EltTy.bits .f32 = 32 ∨ (Rect.block (s := S1x2048) S1x2048.size (cc0_transform_2 i) (hinb0_2 i)).WholeWords (EltTy.packing .f32)
  hstage0_3 : ∀ j, (stage0_3 j).IsWhole
  nbuf0_3 : grid0.bufCount reads0_3 true = 1
  hreads0_3 : ∀ i i' : grid0.Coords, (∀ a, reads0_3 a = true → i a = i' a) → cc0_transform_3 i = cc0_transform_3 i'
  hinb0_3 : ∀ (i : grid0.Coords) a, (cc0_transform_3 i a + 1) * S1x1.size a ≤ S1x1.size a
  hwx0_3 : ∀ i : grid0.Coords, EltTy.bits .f32 = 32 ∨ (Rect.block (s := S1x1) S1x1.size (cc0_transform_3 i) (hinb0_3 i)).WholeWords (EltTy.packing .f32)
  hstage0_4 : ∀ j, (stage0_4 j).IsWhole
  nbuf0_4 : grid0.bufCount reads0_4 false = 2
  hreads0_4 : ∀ i i' : grid0.Coords, (∀ a, reads0_4 a = true → i a = i' a) → cc0_transform_4 i = cc0_transform_4 i'
  hinb0_4 : ∀ (i : grid0.Coords) a, (cc0_transform_4 i a + 1) * S512x2048.size a ≤ S8192x2048.size a
  hwx0_4 : ∀ i : grid0.Coords, EltTy.bits .f32 = 32 ∨ (Rect.block (s := S8192x2048) S512x2048.size (cc0_transform_4 i) (hinb0_4 i)).WholeWords (EltTy.packing .f32)

variable [Facts₀]

def dot_S512x2048_S2048x2048_S512x2048_1_0_0_1_n_n : DotDims S512x2048 S2048x2048 S512x2048 where
  lhsContracting := [1]
  rhsContracting := [0]
  lhsNonContracting := [0]
  rhsNonContracting := [1]
  lhsBatch := []
  rhsBatch := []
  wf := dot_S512x2048_S2048x2048_S512x2048_1_0_0_1_n_n_wf

abbrev win0_0 : Pipeline.Window sig grid0 :=
  Pipeline.Window.ofSpec (Memref.whole main_v12) S512x2048.size cc0_transform_0 reads0_0 false false 2 stage0_0 sem0_0
    hrank0 hreads0_0 hinb0_0 nbuf0_0 (Memref.isWhole_whole _) hwx0_0 hstage0_0

abbrev win0_1 : Pipeline.Window sig grid0 :=
  Pipeline.Window.ofSpec (Memref.whole main_v9) S2048x2048.size cc0_transform_1 reads0_1 false true 1 stage0_1 sem0_1
    hrank0 hreads0_1 hinb0_1 nbuf0_1 (Memref.isWhole_whole _) hwx0_1 hstage0_1

abbrev win0_2 : Pipeline.Window sig grid0 :=
  Pipeline.Window.ofSpec (Memref.whole main_v11) S1x2048.size cc0_transform_2 reads0_2 false true 1 stage0_2 sem0_2
    hrank0 hreads0_2 hinb0_2 nbuf0_2 (Memref.isWhole_whole _) hwx0_2 hstage0_2

abbrev win0_3 : Pipeline.Window sig grid0 :=
  Pipeline.Window.ofSpec (Memref.whole main_v10) S1x1.size cc0_transform_3 reads0_3 false true 1 stage0_3 sem0_3
    hrank0 hreads0_3 hinb0_3 nbuf0_3 (Memref.isWhole_whole _) hwx0_3 hstage0_3

abbrev win0_4 : Pipeline.Window sig grid0 :=
  Pipeline.Window.ofSpec (Memref.whole main_v13) S512x2048.size cc0_transform_4 reads0_4 true false 2 stage0_4 sem0_4
    hrank0 hreads0_4 hinb0_4 nbuf0_4 (Memref.isWhole_whole _) hwx0_4 hstage0_4

abbrev win0 : Fin 5 → Pipeline.Window sig grid0 := fun | 0 => win0_0 | 1 => win0_1 | 2 => win0_2 | 3 => win0_3 | 4 => win0_4 | ⟨_ + 5, h⟩ => absurd h (Nat.not_lt.2 (Nat.le_add_left _ _))
abbrev spec0 : Fin 5 → Pipeline.WinSpec sig grid0.rank := fun w => (win0 w).toWinSpec

class Facts : Prop extends Facts₀ where

variable [Facts]
-- ==== ReferenceIdeal.lean ====
abbrev S4x2048x2048 : Shape := ⟨3, ![4, 2048, 2048]⟩
abbrev S2048x2048 : Shape := ⟨2, ![2048, 2048]⟩
abbrev S2048 : Shape := ⟨1, ![2048]⟩
abbrev S_ : Shape := ⟨0, ![]⟩
abbrev S4x2048 : Shape := ⟨2, ![4, 2048]⟩
abbrev S4x2048x1 : Shape := ⟨3, ![4, 2048, 1]⟩
abbrev S1x1x2048 : Shape := ⟨3, ![1, 1, 2048]⟩

abbrev nBuf : Space → Nat
  | .hbm => 55
  | .vmem => 0
  | .smem => 0
  | _ => 0

abbrev bufTy : (tb : Table) → Fin (tcTables nBuf tb) → BufTy
  | .hbm, ⟨0, _⟩ => ⟨S4x2048x2048, .f32⟩
  | .hbm, ⟨1, _⟩ => ⟨S2048x2048, .f32⟩
  | .hbm, ⟨2, _⟩ => ⟨S2048, .f32⟩
  | .hbm, ⟨3, _⟩ => ⟨S2048x2048, .f32⟩
  | .hbm, ⟨4, _⟩ => ⟨S_, .f32⟩
  | .hbm, ⟨5, _⟩ => ⟨S_, .f32⟩
  | .hbm, ⟨6, _⟩ => ⟨S_, .f32⟩
  | .hbm, ⟨7, _⟩ => ⟨S_, .f32⟩
  | .hbm, ⟨8, _⟩ => ⟨S_, .f32⟩
  | .hbm, ⟨9, _⟩ => ⟨S_, .f32⟩
  | .hbm, ⟨10, _⟩ => ⟨S_, .f32⟩
  | .hbm, ⟨11, _⟩ => ⟨S2048x2048, .f32⟩
  | .hbm, ⟨12, _⟩ => ⟨S2048x2048, .f32⟩
  | .hbm, ⟨13, _⟩ => ⟨S2048x2048, .f32⟩
  | .hbm, ⟨14, _⟩ => ⟨S_, .f32⟩
  | .hbm, ⟨15, _⟩ => ⟨S_, .f32⟩
  | .hbm, ⟨16, _⟩ => ⟨S_, .f32⟩
  | .hbm, ⟨17, _⟩ => ⟨S2048x2048, .f32⟩
  | .hbm, ⟨18, _⟩ => ⟨S2048x2048, .f32⟩
  | .hbm, ⟨19, _⟩ => ⟨S_, .f32⟩
  | .hbm, ⟨20, _⟩ => ⟨S2048x2048, .f32⟩
  | .hbm, ⟨21, _⟩ => ⟨S2048x2048, .f32⟩
  | .hbm, ⟨22, _⟩ => ⟨S4x2048x2048, .f32⟩
  | .hbm, ⟨23, _⟩ => ⟨S_, .f32⟩
  | .hbm, ⟨24, _⟩ => ⟨S4x2048, .f32⟩
  | .hbm, ⟨25, _⟩ => ⟨S4x2048x1, .f32⟩
  | .hbm, ⟨26, _⟩ => ⟨S_, .f32⟩
  | .hbm, ⟨27, _⟩ => ⟨S_, .f32⟩
  | .hbm, ⟨28, _⟩ => ⟨S4x2048x1, .f32⟩
  | .hbm, ⟨29, _⟩ => ⟨S4x2048x1, .f32⟩
  | .hbm, ⟨30, _⟩ => ⟨S_, .f32⟩
  | .hbm, ⟨31, _⟩ => ⟨S4x2048x1, .f32⟩
  | .hbm, ⟨32, _⟩ => ⟨S4x2048x1, .f32⟩
  | .hbm, ⟨33, _⟩ => ⟨S4x2048x2048, .f32⟩
  | .hbm, ⟨34, _⟩ => ⟨S4x2048x2048, .f32⟩
  | .hbm, ⟨35, _⟩ => ⟨S4x2048x2048, .f32⟩
  | .hbm, ⟨36, _⟩ => ⟨S_, .f32⟩
  | .hbm, ⟨37, _⟩ => ⟨S_, .f32⟩
  | .hbm, ⟨38, _⟩ => ⟨S_, .f32⟩
  | .hbm, ⟨39, _⟩ => ⟨S4x2048x2048, .f32⟩
  | .hbm, ⟨40, _⟩ => ⟨S4x2048x2048, .f32⟩
  | .hbm, ⟨41, _⟩ => ⟨S_, .f32⟩
  | .hbm, ⟨42, _⟩ => ⟨S4x2048x2048, .f32⟩
  | .hbm, ⟨43, _⟩ => ⟨S4x2048x2048, .f32⟩
  | .hbm, ⟨44, _⟩ => ⟨S4x2048x2048, .f32⟩
  | .hbm, ⟨45, _⟩ => ⟨S1x1x2048, .f32⟩
  | .hbm, ⟨46, _⟩ => ⟨S4x2048x2048, .f32⟩
  | .hbm, ⟨47, _⟩ => ⟨S4x2048x2048, .f32⟩
  | .hbm, ⟨48, _⟩ => ⟨S4x2048x1, .f32⟩
  | .hbm, ⟨49, _⟩ => ⟨S4x2048x1, .f32⟩
  | .hbm, ⟨50, _⟩ => ⟨S4x2048x2048, .f32⟩
  | .hbm, ⟨51, _⟩ => ⟨S4x2048x2048, .f32⟩
  | .hbm, ⟨52, _⟩ => ⟨S_, .f32⟩
  | .hbm, ⟨53, _⟩ => ⟨S4x2048x2048, .f32⟩
  | .hbm, ⟨54, _⟩ => ⟨S4x2048x2048, .f32⟩
  | _, _ => ⟨S4x2048x2048, .f32⟩

abbrev bufScoped : (cs : CoreSpace) → Fin (nBuf (.core cs)) → Bool
  | _, _ => false

abbrev semScoped : Fin 0 → Bool
  | ⟨_, h⟩ => absurd h (Nat.not_lt_zero _)

abbrev dmaSemScoped : Fin 0 → Bool
  | ⟨_, h⟩ => absurd h (Nat.not_lt_zero _)

abbrev sig : RefSig :=
  ofTc nBuf bufTy 0 0 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_v0 : Ref sig .tc := ⟨.hbm, 3, rfl⟩
abbrev main_cst : Ref sig .tc := ⟨.hbm, 4, rfl⟩
abbrev main_v1 : Ref sig .tc := ⟨.hbm, 5, rfl⟩
abbrev main_cst_0 : Ref sig .tc := ⟨.hbm, 6, rfl⟩
abbrev main_v2 : Ref sig .tc := ⟨.hbm, 7, rfl⟩
abbrev main_cst_1 : Ref sig .tc := ⟨.hbm, 8, rfl⟩
abbrev main_call0_v0 : Ref sig .tc := ⟨.hbm, 9, rfl⟩
abbrev main_v3 : Ref sig .tc := ⟨.hbm, 10, rfl⟩
abbrev main_v4 : Ref sig .tc := ⟨.hbm, 11, rfl⟩
abbrev main_v5 : Ref sig .tc := ⟨.hbm, 12, rfl⟩
abbrev main_v6 : Ref sig .tc := ⟨.hbm, 13, rfl⟩
abbrev main_cst_2 : Ref sig .tc := ⟨.hbm, 14, rfl⟩
abbrev main_cst_3 : Ref sig .tc := ⟨.hbm, 15, rfl⟩
abbrev main_call2_v0 : Ref sig .tc := ⟨.hbm, 16, rfl⟩
abbrev main_call2_v1 : Ref sig .tc := ⟨.hbm, 17, rfl⟩
abbrev main_call2_v2 : Ref sig .tc := ⟨.hbm, 18, rfl⟩
abbrev main_call2_v3 : Ref sig .tc := ⟨.hbm, 19, rfl⟩
abbrev main_call2_v4 : Ref sig .tc := ⟨.hbm, 20, rfl⟩
abbrev main_v7 : Ref sig .tc := ⟨.hbm, 21, rfl⟩
abbrev main_v8 : Ref sig .tc := ⟨.hbm, 22, rfl⟩
abbrev main_cst_4 : Ref sig .tc := ⟨.hbm, 23, rfl⟩
abbrev main_v9 : Ref sig .tc := ⟨.hbm, 24, rfl⟩
abbrev main_v10 : Ref sig .tc := ⟨.hbm, 25, rfl⟩
abbrev main_cst_5 : Ref sig .tc := ⟨.hbm, 26, rfl⟩
abbrev main_call3_v0 : Ref sig .tc := ⟨.hbm, 27, rfl⟩
abbrev main_call3_v1 : Ref sig .tc := ⟨.hbm, 28, rfl⟩
abbrev main_v11 : Ref sig .tc := ⟨.hbm, 29, rfl⟩
abbrev main_cst_6 : Ref sig .tc := ⟨.hbm, 30, rfl⟩
abbrev main_v12 : Ref sig .tc := ⟨.hbm, 31, rfl⟩
abbrev main_v13 : Ref sig .tc := ⟨.hbm, 32, rfl⟩
abbrev main_v14 : Ref sig .tc := ⟨.hbm, 33, rfl⟩
abbrev main_v15 : Ref sig .tc := ⟨.hbm, 34, rfl⟩
abbrev main_v16 : Ref sig .tc := ⟨.hbm, 35, rfl⟩
abbrev main_cst_7 : Ref sig .tc := ⟨.hbm, 36, rfl⟩
abbrev main_cst_8 : Ref sig .tc := ⟨.hbm, 37, rfl⟩
abbrev main_call5_v0 : Ref sig .tc := ⟨.hbm, 38, rfl⟩
abbrev main_call5_v1 : Ref sig .tc := ⟨.hbm, 39, rfl⟩
abbrev main_call5_v2 : Ref sig .tc := ⟨.hbm, 40, rfl⟩
abbrev main_call5_v3 : Ref sig .tc := ⟨.hbm, 41, rfl⟩
abbrev main_call5_v4 : Ref sig .tc := ⟨.hbm, 42, rfl⟩
abbrev main_v17 : Ref sig .tc := ⟨.hbm, 43, rfl⟩
abbrev main_v18 : Ref sig .tc := ⟨.hbm, 44, rfl⟩
abbrev main_v19 : Ref sig .tc := ⟨.hbm, 45, rfl⟩
abbrev main_v20 : Ref sig .tc := ⟨.hbm, 46, rfl⟩
abbrev main_v21 : Ref sig .tc := ⟨.hbm, 47, rfl⟩
abbrev main_v22 : Ref sig .tc := ⟨.hbm, 48, rfl⟩
abbrev main_v23 : Ref sig .tc := ⟨.hbm, 49, rfl⟩
abbrev main_v24 : Ref sig .tc := ⟨.hbm, 50, rfl⟩
abbrev main_v25 : Ref sig .tc := ⟨.hbm, 51, rfl⟩
abbrev main_cst_9 : Ref sig .tc := ⟨.hbm, 52, rfl⟩
abbrev main_v26 : Ref sig .tc := ⟨.hbm, 53, rfl⟩
abbrev main_v27 : Ref sig .tc := ⟨.hbm, 54, rfl⟩

abbrev nD : Nat := 1
abbrev τ : Topo := Topo.v7x

variable {F : FTy → Type} [FloatOps F]

class Facts₀ : Prop where
  reducesTo_S2048x2048_S_d0_1 : S2048x2048.ReducesTo [0, 1] S_
  h_S_ : 0 < S_.numel
  bcast_S_S2048x2048 : S_.BroadcastsInDim S2048x2048 (![] : Fin 0 → Fin S2048x2048.rank)
  reducesTo_S4x2048x2048_S4x2048_d2 : S4x2048x2048.ReducesTo [2] S4x2048
  bcast_S4x2048_S4x2048x1_0_1 : S4x2048.BroadcastsInDim S4x2048x1 (![0, 1] : Fin 2 → Fin S4x2048x1.rank)
  bcast_S_S4x2048x1 : S_.BroadcastsInDim S4x2048x1 (![] : Fin 0 → Fin S4x2048x1.rank)
  bcast_S4x2048x1_S4x2048x2048_0_1_2 : S4x2048x1.BroadcastsInDim S4x2048x2048 (![0, 1, 2] : Fin 3 → Fin S4x2048x2048.rank)
  bcast_S_S4x2048x2048 : S_.BroadcastsInDim S4x2048x2048 (![] : Fin 0 → Fin S4x2048x2048.rank)
  bcast_S2048_S1x1x2048_2 : S2048.BroadcastsInDim S1x1x2048 (![2] : Fin 1 → Fin S1x1x2048.rank)
  bcast_S1x1x2048_S4x2048x2048_0_1_2 : S1x1x2048.BroadcastsInDim S4x2048x2048 (![0, 1, 2] : Fin 3 → Fin S4x2048x2048.rank)
  dot_S4x2048x2048_S2048x2048_S4x2048x2048_2_1_01_0_n_n_wf : DotDims.WF S4x2048x2048 S2048x2048 S4x2048x2048 [2] [1] [0, 1] [0] [] []

variable [Facts₀]

def dot_S4x2048x2048_S2048x2048_S4x2048x2048_2_1_01_0_n_n : DotDims S4x2048x2048 S2048x2048 S4x2048x2048 where
  lhsContracting := [2]
  rhsContracting := [1]
  lhsNonContracting := [0, 1]
  rhsNonContracting := [0]
  lhsBatch := []
  rhsBatch := []
  wf := dot_S4x2048x2048_S2048x2048_S4x2048x2048_2_1_01_0_n_n_wf

class Facts : Prop extends Facts₀ where

variable [Facts]
-- ==== Proof.LibPlainDot.lean ====
/-
  A plain two-dimensional matrix product — `M × K` by `K × N`, contracting the left operand's columns with the right operand's
  rows, no batch axis (`DotDims.plain M K N`, the dimension numbers `<[1], [0], [0], [1]>`) — read at an output index over the
  extended reals: both a kernel's `tpu.matmul` into a zero accumulator and the host's `dot_general` are the finite sum
  `Σ_{k < K} lhs (r, k) · rhs (k, j)`, with the contraction index a plain `Fin K` and the operand indices built from coordinates.
  A printed record `dot_S…_1_0_0_1_n_n` of these dimension numbers IS `DotDims.plain M K N` (`rfl`: the lists coincide and the
  well-formedness field is a proposition), so one `rw` with that equation brings a printed product under these lemmas.
-/
import Idealize.ShloMosaic.PureOps.Ideal.Laws
import Idealize.ShloMosaic.Lib.ValueIdx

namespace Idealize.ShloMosaic.PlainDot

open Idealize.ShloMosaic.ValueIdx

variable {M K N : Nat}

theorem contr_rank : (DotDims.plain M K N).contr.rank = 1 := rfl
theorem contr_size : (DotDims.plain M K N).contr.size ⟨0, by rw [contr_rank]; exact Nat.one_pos⟩ = K := rfl

/-- The left operand's row coordinate is the output's. -/
theorem lhsIdx_val0 (j : (⟨2, ![M, N]⟩ : Shape).Idx) (q : (DotDims.plain M K N).contr.Idx) :
    ((DotDims.plain M K N).lhsIdx j q 0).val = (j 0).val := by
  unfold DotDims.lhsIdx
  rw [dif_neg (show ¬(0 : Fin (⟨2, ![M, K]⟩ : Shape).rank) ∈ (DotDims.plain M K N).lhsBatch from List.not_mem_nil),
    dif_pos (show (0 : Fin (⟨2, ![M, K]⟩ : Shape).rank) ∈ (DotDims.plain M K N).lhsNonContracting from List.mem_singleton.mpr rfl)]
  rfl

/-- The left operand's column coordinate is the contraction position. -/
theorem lhsIdx_val1 (j : (⟨2, ![M, N]⟩ : Shape).Idx) (q : (DotDims.plain M K N).contr.Idx) :
    ((DotDims.plain M K N).lhsIdx j q 1).val = (q ⟨0, by rw [contr_rank]; exact Nat.one_pos⟩).val :=
  (DotDims.plain M K N).lhsIdx_val_of_single (cl := (1 : Fin 2)) rfl j q

/-- The right operand's row coordinate is the contraction position. -/
theorem rhsIdx_val0 (j : (⟨2, ![M, N]⟩ : Shape).Idx) (q : (DotDims.plain M K N).contr.Idx) :
    ((DotDims.plain M K N).rhsIdx j q 0).val = (q ⟨0, by rw [contr_rank]; exact Nat.one_pos⟩).val :=
  (DotDims.plain M K N).rhsIdx_val_of_single (cr := (0 : Fin 2)) rfl j q

/-- The right operand's column coordinate is the output's. -/
theorem rhsIdx_val1 (j : (⟨2, ![M, N]⟩ : Shape).Idx) (q : (DotDims.plain M K N).contr.Idx) :
    ((DotDims.plain M K N).rhsIdx j q 1).val = (j 1).val := by
  unfold DotDims.rhsIdx
  rw [dif_neg (show ¬(1 : Fin (⟨2, ![K, N]⟩ : Shape).rank) ∈ (DotDims.plain M K N).rhsBatch from List.not_mem_nil),
    dif_pos (show (1 : Fin (⟨2, ![K, N]⟩ : Shape).rank) ∈ (DotDims.plain M K N).rhsNonContracting from List.mem_singleton.mpr rfl)]
  rfl

/-- The left operand's index at output index `j` and contraction position `k` is `(j₀, k)`. -/
theorem lhsIdx_eq (j : (⟨2, ![M, N]⟩ : Shape).Idx) (k : Fin K) :
    (DotDims.plain M K N).lhsIdx j ((contrEquiv1 (DotDims.plain M K N) K contr_rank contr_size).symm k)
      = ix2 ⟨(j 0).val, idx2_lt0 j⟩ k := by
  have hk := contrEquiv1_symm_val (DotDims.plain M K N) K contr_rank contr_size k
  funext a
  apply Fin.ext
  match a with
  | ⟨0, _⟩ => exact lhsIdx_val0 j _
  | ⟨1, _⟩ => exact (lhsIdx_val1 j _).trans hk

/-- The right operand's index there is `(k, j₁)`. -/
theorem rhsIdx_eq (j : (⟨2, ![M, N]⟩ : Shape).Idx) (k : Fin K) :
    (DotDims.plain M K N).rhsIdx j ((contrEquiv1 (DotDims.plain M K N) K contr_rank contr_size).symm k)
      = ix2 k ⟨(j 1).val, idx2_lt1 j⟩ := by
  have hk := contrEquiv1_symm_val (DotDims.plain M K N) K contr_rank contr_size k
  funext a
  apply Fin.ext
  match a with
  | ⟨0, _⟩ => exact (rhsIdx_val0 j _).trans hk
  | ⟨1, _⟩ => exact rhsIdx_val1 j _

/-- A kernel's plain matrix product into the zero accumulator, at an output index: the sum over the contracted coordinate. -/
theorem matmul_apply {φ₁ φ₂ : FTy} (prec : Option ContractPrecision) (lhs : FVec Ideal ⟨2, ![M, K]⟩ φ₁)
    (rhs : FVec Ideal ⟨2, ![K, N]⟩ φ₂) (j : (⟨2, ![M, N]⟩ : Shape).Idx) :
    FloatOps.matmul (DotDims.plain M K N) prec lhs rhs (constant ⟨2, ![M, N]⟩ .f32 0x00000000#32) j
      = ∑ k : Fin K, lhs (ix2 ⟨(j 0).val, idx2_lt0 j⟩ k) * rhs (ix2 k ⟨(j 1).val, idx2_lt1 j⟩) := by
  rw [Ideal.matmul_constant_zero_apply,
    ← Equiv.sum_comp (contrEquiv1 (DotDims.plain M K N) K contr_rank contr_size).symm]
  refine Finset.sum_congr rfl fun k _ => ?_
  rw [lhsIdx_eq, rhsIdx_eq]

/-- The host's plain `dot_general` at an output index: the same sum. -/
theorem dotGeneral_apply {φ₁ φ₂ : FTy} (prec : Option ContractPrecision) (sched : HostSchedule)
    (lhs : FVec Ideal ⟨2, ![M, K]⟩ φ₁) (rhs : FVec Ideal ⟨2, ![K, N]⟩ φ₂) (j : (⟨2, ![M, N]⟩ : Shape).Idx) :
    FloatOps.dotGeneral (DotDims.plain M K N) prec sched lhs rhs j
      = ∑ k : Fin K, lhs (ix2 ⟨(j 0).val, idx2_lt0 j⟩ k) * rhs (ix2 k ⟨(j 1).val, idx2_lt1 j⟩) := by
  rw [Ideal.dotGeneral_apply,
    ← Equiv.sum_comp (contrEquiv1 (DotDims.plain M K N) K contr_rank contr_size).symm]
  refine Finset.sum_congr rfl fun k _ => ?_
  rw [lhsIdx_eq, rhsIdx_eq]

/-- At an index given by coordinates. -/
theorem matmul_apply_ix2 {φ₁ φ₂ : FTy} (prec : Option ContractPrecision) (lhs : FVec Ideal ⟨2, ![M, K]⟩ φ₁)
    (rhs : FVec Ideal ⟨2, ![K, N]⟩ φ₂) (r : Fin M) (c : Fin N) :
    FloatOps.matmul (DotDims.plain M K N) prec lhs rhs (constant ⟨2, ![M, N]⟩ .f32 0x00000000#32) (ix2 r c)
      = ∑ k : Fin K, lhs (ix2 r k) * rhs (ix2 k c) :=
  matmul_apply prec lhs rhs (ix2 r c)

theorem dotGeneral_apply_ix2 {φ₁ φ₂ : FTy} (prec : Option ContractPrecision) (sched : HostSchedule)
    (lhs : FVec Ideal ⟨2, ![M, K]⟩ φ₁) (rhs : FVec Ideal ⟨2, ![K, N]⟩ φ₂) (r : Fin M) (c : Fin N) :
    FloatOps.dotGeneral (DotDims.plain M K N) prec sched lhs rhs (ix2 r c)
      = ∑ k : Fin K, lhs (ix2 r k) * rhs (ix2 k c) :=
  dotGeneral_apply prec sched lhs rhs (ix2 r c)

end Idealize.ShloMosaic.PlainDot
-- ==== Proof.LibColumn.lean ====
/-
  A column vector kept as a trailing unit axis (`jnp.sum(…, keepdims=True)`), read at an index given by coordinates:
  a vector `[a]` cast to the column `[a, 1]`, and a column `[a, 1]` broadcast along its unit axis to `[a, b]`. Both read the
  operand at the row coordinate alone.
-/
import Idealize.ShloMosaic.Lib.Pipeline.Value
import Idealize.ShloMosaic.Lib.ValueIdx

namespace Idealize.ShloMosaic.Column

open Idealize.ShloMosaic Idealize.ShloMosaic.ValueIdx

variable {α : Type}

/-- An `[a]` array cast to the column `[a, 1]` reads, at `(i, u)`, the operand at `i`, whatever the unit coordinate `u`. -/
theorem shapeCast_a_a1_apply {a : ℕ} (x : (⟨1, ![a]⟩ : Shape).Idx → α) (h : (⟨1, ![a]⟩ : Shape).ShapeCasts ⟨2, ![a, 1]⟩)
    (i : Fin a) (u : Fin 1) : shapeCast ⟨2, ![a, 1]⟩ x h (ix2 i u) = x (ix1 i) :=
  shapeCast_apply x h _ _ (by
    have hu : u.val = 0 := by omega
    rw [Shape.rowMajor_val_two, Shape.rowMajor_val_one]
    show i.val = i.val * 1 + u.val
    rw [hu, Nat.mul_one, Nat.add_zero])

/-- A column `[a, 1]` broadcast to `[a, b]` reads, at `(p, c)`, the operand's row `p`. -/
theorem broadcastTo_a1_ab_apply {a b : ℕ} (v : (⟨2, ![a, 1]⟩ : Shape).Idx → α) (h : (⟨2, ![a, 1]⟩ : Shape).Broadcasts ⟨2, ![a, b]⟩)
    (p : Fin a) (c : Fin b) : broadcastTo ⟨2, ![a, b]⟩ v h (ix2 p c) = v (ix2 p (0 : Fin 1)) := by
  refine broadcastTo_apply v h (ix2 p c) (ix2 p (0 : Fin 1)) fun ax => ?_
  match ax with
  | ⟨0, _⟩ =>
    show p.val = if a = 1 then 0 else p.val
    split
    · have := p.isLt; omega
    · rfl
  | ⟨1, _⟩ => rfl

end Idealize.ShloMosaic.Column
-- ==== Proof.LibRowColumn.lean ====
/-
  Small layout and reduction readings for a `[a, b]` matrix whose columns are reduced, at indices given by coordinates.
  • A one-row matrix `[1, a]` cast to the column `[a, 1]` reads, at `(i, u)`, the row's entry `i`.
  • A `vector.multi_reduction <maximumf>` / `<add>` of a `[a, b]` matrix over its ROWS (axis 0), at column `c`: the fold of
    `max` from the accumulator, resp. the sum, over `k : Fin a` of the entries `(k, c)`.
  • The host's `stablehlo.reduce` of a `[a, b]` matrix over its COLUMNS (axis 1) with a maximum body, at row `r`: the fold of
    `max` from the initial value over `k : Fin b` of the entries `(r, k)`.
  • The f32 patterns `0xFF800000` and `0x3F800000` denote −∞ and 1; a maximum with −∞ and a quotient by 1 change nothing.
-/
import Idealize.ShloMosaic.PureOps.Ideal.Laws
import Idealize.ShloMosaic.Lib.Pipeline.Value
import Idealize.ShloMosaic.Lib.ValueIdx

namespace Idealize.ShloMosaic.RowColumn

open Idealize.ShloMosaic Idealize.ShloMosaic.ValueIdx

/-- A `[1, a]` array cast to the column `[a, 1]` reads, at `(i, u)`, the one row's entry `i`. -/
theorem shapeCast_1a_a1_apply {α : Type} {a : ℕ} (x : (⟨2, ![1, a]⟩ : Shape).Idx → α)
    (h : (⟨2, ![1, a]⟩ : Shape).ShapeCasts ⟨2, ![a, 1]⟩) (i : Fin a) (u : Fin 1) :
    shapeCast ⟨2, ![a, 1]⟩ x h (ix2 i u) = x (ix2 (0 : Fin 1) i) :=
  shapeCast_apply x h _ _ (by
    have hu : u.val = 0 := by omega
    rw [Shape.rowMajor_val_two, Shape.rowMajor_val_two]
    show 0 * a + i.val = i.val * 1 + u.val
    rw [hu, Nat.zero_mul, Nat.zero_add, Nat.mul_one, Nat.add_zero])

/-- Column `c` of a `[a, b]` matrix with row `k` put back is `(k, c)`. -/
theorem lift_rows {a b : ℕ} (h : (⟨2, ![a, b]⟩ : Shape).Reduces [0] (⟨1, ![b]⟩ : Shape)) (c : Fin b)
    (k : Fin ((⟨2, ![a, b]⟩ : Shape).size 0)) : h.lift (ix1 c) k = ix2 (⟨k.val, k.isLt⟩ : Fin a) c := by
  funext d; apply Fin.ext
  fin_cases d <;> rfl

/-- Row `r` of a `[a, b]` matrix with column `k` put back is `(r, k)`. -/
theorem lift_cols {a b : ℕ} (h : (⟨2, ![a, b]⟩ : Shape).Reduces [1] (⟨1, ![a]⟩ : Shape)) (r : Fin a)
    (k : Fin ((⟨2, ![a, b]⟩ : Shape).size 1)) : h.lift (ix1 r) k = ix2 r (⟨k.val, k.isLt⟩ : Fin b) := by
  funext d; apply Fin.ext
  fin_cases d <;> rfl

variable {φ : FTy}

/-- The maximum down column `c` of a `[a, b]` matrix, as a kernel's `multi_reduction <maximumf>` over the rows computes it. -/
theorem multiReduction_maximumf_rows {a b : ℕ} (src : FVec Ideal ⟨2, ![a, b]⟩ φ) (acc : BitVec φ.bits)
    (h : (⟨2, ![a, b]⟩ : Shape).Reduces [0] (⟨1, ![b]⟩ : Shape)) (hφ : FKind.Formats φ)
    (hacc : acc = FKind.maximumf.neutral φ hφ) (c : Fin b) :
    multiReduction .maximumf [0] ⟨1, ![b]⟩ src acc h hφ hacc (ix1 c)
      = (Finset.univ : Finset (Fin a)).fold max (Ideal.ofBits φ acc) (fun k => src (ix2 k c)) := by
  rw [Ideal.multiReduction_maximumf_single]
  exact congrArg (fun f => Finset.fold max (Ideal.ofBits φ acc) f (Finset.univ : Finset (Fin a)))
    (funext fun k => congrArg src (lift_rows h c k))

/-- The sum down column `c` of a `[a, b]` matrix, as a kernel's `multi_reduction <add>` over the rows computes it. -/
theorem multiReduction_add_rows {a b : ℕ} (src : FVec Ideal ⟨2, ![a, b]⟩ φ) (acc : BitVec φ.bits)
    (h : (⟨2, ![a, b]⟩ : Shape).Reduces [0] (⟨1, ![b]⟩ : Shape)) (hφ : FKind.Formats φ)
    (hacc : acc = FKind.add.neutral φ hφ) (c : Fin b) :
    multiReduction .add [0] ⟨1, ![b]⟩ src acc h hφ hacc (ix1 c) = ∑ k : Fin a, src (ix2 k c) := by
  rw [Ideal.multiReduction_add_single]
  exact Finset.sum_congr rfl fun k _ => congrArg src (lift_rows h c k)

/-- The maximum along row `r` of a `[a, b]` matrix, as the host's `stablehlo.reduce` with a maximum body over the columns
    computes it from the initial value `init`. -/
theorem hostReduce_maximumf_cols {a b : ℕ} {u : Shape} (x : FVec Ideal ⟨2, ![a, b]⟩ φ) (init : FVec Ideal u φ)
    (h' : (⟨2, ![a, b]⟩ : Shape).ReducesTo [1] (⟨1, ![a]⟩ : Shape)) (h : (⟨2, ![a, b]⟩ : Shape).Reduces [1] (⟨1, ![a]⟩ : Shape))
    (hu : 0 < u.numel) (r : Fin a) :
    Host.reduce FloatOps.maximumf x init h' hu (ix1 r)
      = (Finset.univ : Finset (Fin b)).fold max (init (Shape.Idx.first hu)) (fun k => x (ix2 r k)) := by
  rw [Host.reduce_eq_fold_single FloatOps.maximumf x init h' h hu]
  exact congrArg (fun f => Finset.fold max (init (Shape.Idx.first hu)) f (Finset.univ : Finset (Fin b)))
    (funext fun k => congrArg x (lift_cols h r k))

/-- The f32 pattern `0xFF800000` denotes −∞. -/
theorem ofBits_negInf : Ideal.ofBits .f32 0xFF800000#32 = (⊥ : EReal) := by simp [Ideal.ofBits, Ideal.ieee]

/-- The maximum of −∞ and `y` is `y`. -/
theorem max_negInf (y : EReal) : max (Ideal.ofBits .f32 0xFF800000#32) y = y := by
  rw [ofBits_negInf]; exact max_bot_left y

/-- The f32 pattern `0x3F800000` denotes 1. -/
theorem ofBits_one : Ideal.ofBits .f32 0x3F800000#32 = (1 : EReal) := IdealRules.sign_bit.ideal_onePat .f32

/-- A quotient by 1 is the dividend, at the infinities too. -/
theorem div_one (y : EReal) : Ideal.div y (Ideal.ofBits .f32 0x3F800000#32) = y := by
  rw [ofBits_one, ← EReal.coe_one, Ideal.div_coe (by norm_num : (1 : ℝ) ≠ 0)]
  norm_num

end Idealize.ShloMosaic.RowColumn
-- ==== Proof.LibRowReduce.lean ====
/-
  Readings, at indices given by coordinates, of the operations a row-wise softmax kernel and its host reference meet beyond
  the column reductions of `LibRowColumn`:
  • a `vector.multi_reduction <maximumf>` / `<add>` of a `[a, b]` matrix ALONG its rows (axis 1), at row `r`: the fold of
    `max` from the accumulator, resp. the sum, over `k : Fin b` of the entries `(r, k)`;
  • the host's `stablehlo.reduce` with a maximum body of a `[B, L, N]` array over its last axis, at `(b, r)`: the fold of
    `max` from the initial value over `k : Fin N` of the entries `(b, r, k)`;
  • a `[n, k]` matrix transposed to `[k, n]` reads, at `(d, c)`, the entry `(c, d)`;
  • a `[1, a, b]` block cast to the matrix `[a, b]` reads, at `(r, c)`, the entry `(0, r, c)`, and back.
-/
import proofs.«141473_j46213848106050_1_alg».proof.Proof.LibRowColumn

namespace Idealize.ShloMosaic.RowReduce

open Idealize.ShloMosaic Idealize.ShloMosaic.ValueIdx

variable {φ : FTy}

/-- The maximum along row `r` of a `[a, b]` matrix, as a kernel's `multi_reduction <maximumf>` over the columns computes it. -/
theorem multiReduction_maximumf_cols {a b : ℕ} (src : FVec Ideal ⟨2, ![a, b]⟩ φ) (acc : BitVec φ.bits)
    (h : (⟨2, ![a, b]⟩ : Shape).Reduces [1] (⟨1, ![a]⟩ : Shape)) (hφ : FKind.Formats φ)
    (hacc : acc = FKind.maximumf.neutral φ hφ) (r : Fin a) :
    multiReduction .maximumf [1] ⟨1, ![a]⟩ src acc h hφ hacc (ix1 r)
      = (Finset.univ : Finset (Fin b)).fold max (Ideal.ofBits φ acc) (fun k => src (ix2 r k)) := by
  rw [Ideal.multiReduction_maximumf_single]
  exact congrArg (fun f => Finset.fold max (Ideal.ofBits φ acc) f (Finset.univ : Finset (Fin b)))
    (funext fun k => congrArg src (RowColumn.lift_cols h r k))

/-- The sum along row `r` of a `[a, b]` matrix, as a kernel's `multi_reduction <add>` over the columns computes it. -/
theorem multiReduction_add_cols {a b : ℕ} (src : FVec Ideal ⟨2, ![a, b]⟩ φ) (acc : BitVec φ.bits)
    (h : (⟨2, ![a, b]⟩ : Shape).Reduces [1] (⟨1, ![a]⟩ : Shape)) (hφ : FKind.Formats φ)
    (hacc : acc = FKind.add.neutral φ hφ) (r : Fin a) :
    multiReduction .add [1] ⟨1, ![a]⟩ src acc h hφ hacc (ix1 r) = ∑ k : Fin b, src (ix2 r k) := by
  rw [Ideal.multiReduction_add_single]
  exact Finset.sum_congr rfl fun k _ => congrArg src (RowColumn.lift_cols h r k)

/-- Entry `(b, r)` of the reduced array with the last coordinate `k` put back is `(b, r, k)`. -/
theorem lift_last3 {B L N : ℕ} (h : (⟨3, ![B, L, N]⟩ : Shape).Reduces [2] (⟨2, ![B, L]⟩ : Shape)) (b : Fin B) (r : Fin L)
    (k : Fin ((⟨3, ![B, L, N]⟩ : Shape).size 2)) : h.lift (ix2 b r) k = ix3 b r (⟨k.val, k.isLt⟩ : Fin N) := by
  funext d; apply Fin.ext
  fin_cases d <;> rfl

/-- The maximum over the last axis of a `[B, L, N]` array at `(b, r)`, as the host's `stablehlo.reduce` with a maximum body
    computes it from the initial value `init`. -/
theorem hostReduce_maximumf_last3 {B L N : ℕ} {u : Shape} (x : FVec Ideal ⟨3, ![B, L, N]⟩ φ) (init : FVec Ideal u φ)
    (h' : (⟨3, ![B, L, N]⟩ : Shape).ReducesTo [2] (⟨2, ![B, L]⟩ : Shape))
    (h : (⟨3, ![B, L, N]⟩ : Shape).Reduces [2] (⟨2, ![B, L]⟩ : Shape)) (hu : 0 < u.numel) (b : Fin B) (r : Fin L) :
    Host.reduce FloatOps.maximumf x init h' hu (ix2 b r)
      = (Finset.univ : Finset (Fin N)).fold max (init (Shape.Idx.first hu)) (fun k => x (ix3 b r k)) := by
  rw [Host.reduce_eq_fold_single FloatOps.maximumf x init h' h hu]
  exact congrArg (fun f => Finset.fold max (init (Shape.Idx.first hu)) f (Finset.univ : Finset (Fin N)))
    (funext fun k => congrArg x (lift_last3 h b r k))

/-- A `[n, k]` matrix transposed to `[k, n]` reads, at `(d, c)`, the entry `(c, d)`. -/
theorem transpose_10_apply {α : Type} {n k : ℕ} (x : (⟨2, ![n, k]⟩ : Shape).Idx → α)
    (h : (⟨2, ![n, k]⟩ : Shape).Transposes [1, 0] ⟨2, ![k, n]⟩) (d : Fin k) (c : Fin n) :
    transpose ⟨2, ![k, n]⟩ [1, 0] x h (ix2 d c) = x (ix2 c d) :=
  transpose_apply [1, 0] x h (ix2 d c) (ix2 c d) (fun b => by
    match b with
    | ⟨0, _⟩ => rfl
    | ⟨1, _⟩ => rfl)

/-- A `[1, a, b]` block cast to the matrix `[a, b]` reads, at `(r, c)`, the block's entry `(0, r, c)`. -/
theorem shapeCast_1ab_ab_apply {α : Type} {a b : ℕ} (x : (⟨3, ![1, a, b]⟩ : Shape).Idx → α)
    (h : (⟨3, ![1, a, b]⟩ : Shape).ShapeCasts ⟨2, ![a, b]⟩) (r : Fin a) (c : Fin b) :
    shapeCast ⟨2, ![a, b]⟩ x h (ix2 r c) = x (ix3 (0 : Fin 1) r c) :=
  shapeCast_apply x h _ _ (by
    rw [Shape.rowMajor_val_three, Shape.rowMajor_val_two]
    show (0 * a + r.val) * b + c.val = r.val * b + c.val
    rw [Nat.zero_mul, Nat.zero_add])

end Idealize.ShloMosaic.RowReduce
-- ==== Proof.TokenQuant.lean ====
/-
  Per-row ("per-token") absmax quantisation followed by a linear layer and the de-quantising rescale, over the extended reals.
  For a row `x` of `K` entries let `γ = max(ε, max_k |x k|)`; the row is quantised entry by entry to
  `q k = min(127, max(-128, roundeven(x k · (128 / γ))))`, multiplied with a column `w` of (already quantised) weights, shifted by
  a bias `b`, and rescaled: `((Σ_k q k · w k) + b) · (s · γ) / 128`, `s` the weights' scale. This file states that entry
  (`outEntry`) and shows that a kernel body computing it on a block of `A` rows — a lane maximum along the rows kept as a column
  `[A, 1]`, the column broadcast back over the row, a matrix-unit product into a zero accumulator, a bias row `[1, N]` repeated
  down the rows — has `outEntry` of row `p` and column `q` at its entry `(p, q)`. Nothing here needs a finite input: every step
  is the same operation on both sides.
-/
import Idealize.ShloMosaic.PureOps.Ideal.Laws
import Idealize.ShloMosaic.Lib.ValueIdx
import Idealize.ShloMosaic.Lib.ValueLayout
import Idealize.ShloMosaic.Lib.Pipeline.Value
import proofs.«141473_j46213848106050_1_alg».proof.Proof.LibPlainDot
import proofs.«141473_j46213848106050_1_alg».proof.Proof.LibColumn
import proofs.«141473_j46213848106050_1_alg».proof.Proof.LibRowReduce

noncomputable section

namespace Cert.BitLinear

open Idealize.ShloMosaic Idealize.ShloMosaic.ValueIdx

variable {A K N : ℕ}

/-- The row's scale: the largest magnitude of its entries, but at least `ε` (the f32 nearest to 1e-5). The fold starts at −∞. -/
def rowGamma (row : Fin K → EReal) : EReal :=
  max (Ideal.ofBits .f32 0x3727C5AC#32)
    ((Finset.univ : Finset (Fin K)).fold max (Ideal.ofBits .f32 0xFF800000#32) fun k => max (row k) (-(row k)))

/-- An entry `x` of a row of scale `g`, quantised: scaled by `128 / g`, rounded to the nearest integer (ties to even), clipped
    to `[-128, 127]`. -/
def quant (g x : EReal) : EReal :=
  min (Ideal.ofBits .f32 0x42FE0000#32) (max (Ideal.ofBits .f32 0xC3000000#32)
    (Ideal.liftRound Ideal.roundHalfEven (x * Ideal.div (Ideal.ofBits .f32 0x43000000#32) g)))

/-- One output entry: the quantised row against a weight column, plus the bias, times `s · γ`, over 128. -/
def outEntry (row wcol : Fin K → EReal) (b s : EReal) : EReal :=
  Ideal.div (((∑ k : Fin K, quant (rowGamma row) (row k) * wcol k) + b) * (s * rowGamma row)) (Ideal.ofBits .f32 0x43000000#32)

/-- The column of row scales a kernel body computes from a block `x` — the lane maximum of `|x|` along each row, cast to a column
    and clipped below by `ε` — reads, at row `p`, the scale of that row. -/
theorem gammaColumn_apply (x : FVec Ideal ⟨2, ![A, K]⟩ .f32)
    (hred : (⟨2, ![A, K]⟩ : Shape).Reduces [1] ⟨1, ![A]⟩) (hφ : FKind.Formats FTy.f32)
    (hacc : (0xFF800000#32 : BitVec FTy.f32.bits) = FKind.maximumf.neutral .f32 hφ)
    (hcast : (⟨1, ![A]⟩ : Shape).ShapeCasts ⟨2, ![A, 1]⟩) (p : Fin A) (u : Fin 1) :
    (maximumf (broadcast ⟨2, ![A, 1]⟩ (Scalar.ofBits (F := Ideal) .f32 0x3727C5AC#32))
        (shapeCast ⟨2, ![A, 1]⟩ (multiReduction .maximumf [1] ⟨1, ![A]⟩ (absf x) 0xFF800000#32 hred hφ hacc) hcast)) (ix2 p u)
      = rowGamma fun k => x (ix2 p k) :=
  (maximumf_apply _ _ _).trans (congrArg₂ max rfl
    ((Column.shapeCast_a_a1_apply _ hcast p u).trans (RowReduce.multiReduction_maximumf_cols (absf x) _ hred hφ hacc p)))

/-- The rounding to bf16 of a clipped, rounded product, at an index: the clip of the rounding of the product of the entries. -/
theorem quantBlock_apply (x r : FVec Ideal ⟨2, ![A, K]⟩ .f32) (ht : FTy.bf16.bits < FTy.f32.bits) (i : (⟨2, ![A, K]⟩ : Shape).Idx) :
    truncf .bf16 (minimumf (broadcast ⟨2, ![A, K]⟩ (Scalar.ofBits (F := Ideal) .f32 0x42FE0000#32))
      (maximumf (broadcast ⟨2, ![A, K]⟩ (Scalar.ofBits (F := Ideal) .f32 0xC3000000#32)) (roundeven (mulf x r)))) ht i
      = min (Ideal.ofBits .f32 0x42FE0000#32) (max (Ideal.ofBits .f32 0xC3000000#32)
          (Ideal.liftRound Ideal.roundHalfEven (x i * r i))) := rfl

/-- THE BLOCK: the kernel body's value on a block `x0` of `A` rows, the weights `x1`, the bias row `x2` and the weights' scale `s`,
    at row `p` and column `q`, is `outEntry` of row `p` of the block, column `q` of the weights, the bias at `q` and `s`. -/
theorem block_apply (x0 : FVec Ideal ⟨2, ![A, K]⟩ .f32) (x1 : FVec Ideal ⟨2, ![K, N]⟩ .bf16) (x2 : FVec Ideal ⟨2, ![1, N]⟩ .f32) (s : EReal)
    (hred : (⟨2, ![A, K]⟩ : Shape).Reduces [1] ⟨1, ![A]⟩) (hφ : FKind.Formats FTy.f32)
    (hacc : (0xFF800000#32 : BitVec FTy.f32.bits) = FKind.maximumf.neutral .f32 hφ)
    (hcast : (⟨1, ![A]⟩ : Shape).ShapeCasts ⟨2, ![A, 1]⟩)
    (hb : (⟨2, ![A, 1]⟩ : Shape).Broadcasts ⟨2, ![A, K]⟩) (hb' : (⟨2, ![A, 1]⟩ : Shape).Broadcasts ⟨2, ![A, N]⟩)
    (hbias : (⟨2, ![1, N]⟩ : Shape).Broadcasts ⟨2, ![A, N]⟩) (ht : FTy.bf16.bits < FTy.f32.bits) (p : Fin A) (q : Fin N) :
    divf (mulf (addf (matmul (DotDims.plain A K N) none
              (truncf .bf16 (minimumf (broadcast ⟨2, ![A, K]⟩ (Scalar.ofBits (F := Ideal) .f32 0x42FE0000#32))
                (maximumf (broadcast ⟨2, ![A, K]⟩ (Scalar.ofBits (F := Ideal) .f32 0xC3000000#32))
                  (roundeven (mulf x0 (broadcastTo ⟨2, ![A, K]⟩
                    (divf (broadcast ⟨2, ![A, 1]⟩ (Scalar.ofBits (F := Ideal) .f32 0x43000000#32)) (maximumf (broadcast ⟨2, ![A, 1]⟩ (Scalar.ofBits (F := Ideal) .f32 0x3727C5AC#32))
        (shapeCast ⟨2, ![A, 1]⟩ (multiReduction .maximumf [1] ⟨1, ![A]⟩ (absf x0) 0xFF800000#32 hred hφ hacc) hcast))) hb))))) ht)
              x1 (constant ⟨2, ![A, N]⟩ .f32 0x00000000#32))
            (broadcastTo ⟨2, ![A, N]⟩ x2 hbias))
          (broadcastTo ⟨2, ![A, N]⟩ (mulf (broadcast ⟨2, ![A, 1]⟩ s) (maximumf (broadcast ⟨2, ![A, 1]⟩ (Scalar.ofBits (F := Ideal) .f32 0x3727C5AC#32))
        (shapeCast ⟨2, ![A, 1]⟩ (multiReduction .maximumf [1] ⟨1, ![A]⟩ (absf x0) 0xFF800000#32 hred hφ hacc) hcast))) hb'))
        (broadcast ⟨2, ![A, N]⟩ (Scalar.ofBits (F := Ideal) .f32 0x43000000#32)) (ix2 p q)
      = outEntry (fun k => x0 (ix2 p k)) (fun k => x1 (ix2 k q)) (x2 (ix2 (0 : Fin 1) q)) s := by
  unfold outEntry
  refine (divf_apply _ _ _).trans (congrArg₂ Ideal.div ?_ rfl)
  refine (mulf_apply _ _ _).trans (congrArg₂ (· * ·) ?_ ?_)
  · refine (addf_apply _ _ _).trans (congrArg₂ (· + ·) ?_ (broadcastTo_1b_ab_apply x2 hbias p q))
    refine (PlainDot.matmul_apply_ix2 none _ x1 p q).trans (Finset.sum_congr rfl fun k _ => congrArg (· * x1 (ix2 k q)) ?_)
    refine (quantBlock_apply x0 _ ht (ix2 p k)).trans ?_
    unfold quant
    refine congrArg (fun z => min (Ideal.ofBits .f32 0x42FE0000#32) (max (Ideal.ofBits .f32 0xC3000000#32)
      (Ideal.liftRound Ideal.roundHalfEven (x0 (ix2 p k) * z)))) ?_
    refine (Column.broadcastTo_a1_ab_apply _ hb p k).trans ?_
    exact (divf_apply _ _ _).trans (congrArg₂ Ideal.div rfl (gammaColumn_apply x0 hred hφ hacc hcast p 0))
  · refine (Column.broadcastTo_a1_ab_apply _ hb' p q).trans ?_
    exact (mulf_apply _ _ _).trans (congrArg₂ (· * ·) rfl (gammaColumn_apply x0 hred hφ hacc hcast p 0))

end Cert.BitLinear

end
-- ==== Proof.KernelValue.lean ====
/-
  The idealized kernel's result as one function of the arrays its region is launched on. The grid has 16 points; point `t`
  stages rows `512 t … 512 t + 511` of the activations `[8192, 2048]`, the whole transposed ternary weights, the bias row and the
  weights' scale, and writes back rows `512 t … 512 t + 511` of the output. Entry `(p, q)` of what it writes is `outEntry` of row
  `512 t + p` of the activations and column `q` of the weights (the body's value, `TokenQuant.block_apply`); the sixteen blocks tile
  the output, so the output array ends as `rowsOut`, row by row, and the host's final reshape reads it as `[4, 2048, 2048]`.
-/
import proofs.«141473_j46213848106050_1_alg».proof.Proof.Gen.KernelIdeal.Frame
import proofs.«141473_j46213848106050_1_alg».proof.Proof.TokenQuant
import Idealize.ShloMosaic.Lib.StableHlo.Run
import Idealize.ShloMosaic.Lib.Pipeline.Value

set_option maxRecDepth 16384

noncomputable section

namespace Cert.KernelIdeal.BlockValue

open Cert.KernelIdeal Cert.KernelIdeal.Gen Idealize.ShloMosaic Idealize.ShloMosaic.TcCoe Idealize.ShloMosaic.ValueIdx
open Idealize.SL.Sem Idealize.ShloMosaic.StableHlo
open Idealize.ShloMosaic.Pipeline (Dat)

/-- The body's stored value at row `p`, column `q` of its block, from the four blocks it loads. -/
theorem pay_apply (x0 : Vec Ideal S512x2048 .f32) (x1 : Vec Ideal S2048x2048 .bf16) (x2 : Vec Ideal S1x2048 .f32)
    (x3 : Vec Ideal S1x1 .f32) (p : Fin 512) (q : Fin 2048) :
    k0_pay1 (F := Ideal) x0 x1 x2 x3 (ix2 p q)
      = BitLinear.outEntry (fun k => x0 (ix2 p k)) (fun k => x1 (ix2 k q)) (x2 (ix2 (0 : Fin 1) q)) (x3 (ix2 (0 : Fin 1) (0 : Fin 1))) := by
  unfold k0_pay1
  simp only [shapeCast_self]
  exact (BitLinear.block_apply (A := 512) (K := 2048) (N := 2048) x0 x1 x2 _ reduces_S512x2048_S512 (.inl rfl) rfl
    shapeCasts_S512_S512x1 broadcasts_S512x1_S512x2048 broadcasts_S512x1_S512x2048 broadcasts_S1x2048_S512x2048 bitsLt_bf16_f32 p q).trans
    (congrArg (BitLinear.outEntry _ _ _) (congrArg x3 (funext fun a => Fin.ext (by match a with | ⟨0, _⟩ => rfl | ⟨1, _⟩ => rfl))))

/-- The output `[8192, 2048]` as a function of the region's four operand arrays: entry `(r, q)` is `outEntry` of row `r` of the
    activations `X`, column `q` of the weights `W`, the bias `B` at `q` and the scale `S`. -/
def rowsOut (X : S8192x2048.Idx → EReal) (W : S2048x2048.Idx → EReal) (B : S1x2048.Idx → EReal) (S : S1x1.Idx → EReal) :
    S8192x2048.Idx → EReal := fun i =>
  BitLinear.outEntry (fun k => X (ix2 (⟨(i 0).val, idx2_lt0 i⟩ : Fin 8192) k)) (fun k => W (ix2 k (⟨(i 1).val, idx2_lt1 i⟩ : Fin 2048)))
    (B (ix2 (0 : Fin 1) (⟨(i 1).val, idx2_lt1 i⟩ : Fin 2048))) (S (ix2 (0 : Fin 1) (0 : Fin 1)))

theorem rowsOut_ix2 (X : S8192x2048.Idx → EReal) (W : S2048x2048.Idx → EReal) (B : S1x2048.Idx → EReal) (S : S1x1.Idx → EReal)
    (r : Fin 8192) (q : Fin 2048) :
    rowsOut X W B S (ix2 r q)
      = BitLinear.outEntry (fun k => X (ix2 r k)) (fun k => W (ix2 k q)) (B (ix2 (0 : Fin 1) q)) (S (ix2 (0 : Fin 1) (0 : Fin 1))) := rfl

variable (m : (ℓ : Loc nD τ sig) → Buf (Elt Ideal) ℓ) (ρ : Dev nD → PrngReg)

theorem hz : (![0, 0] : Fin 2 → Nat) = fun _ => 0 := funext fun a => by fin_cases a <;> rfl

theorem point_lt (t : Fin cfg0.N) : t.val < 16 := Nat.lt_of_lt_of_eq t.isLt N_0

/-- The block indices, decided over the grid: the activations' and the output's row block is the point, every other block
    index is 0. -/
theorem idx_facts : ∀ t : Fin cfg0.N, win0_0.index t (0 : Fin 2) = t.val ∧ win0_0.index t (1 : Fin 2) = 0
    ∧ win0_1.index t (0 : Fin 2) = 0 ∧ win0_1.index t (1 : Fin 2) = 0
    ∧ win0_2.index t (0 : Fin 2) = 0 ∧ win0_2.index t (1 : Fin 2) = 0
    ∧ win0_3.index t (0 : Fin 2) = 0 ∧ win0_3.index t (1 : Fin 2) = 0
    ∧ win0_4.index t (0 : Fin 2) = t.val ∧ win0_4.index t (1 : Fin 2) = 0 :=
  (by decide +kernel : ∀ t : Fin grid0.N, _)

/-- Row `p` of the activations' block at point `t` is row `512 t + p` of the array. -/
theorem emb_x (t : Fin cfg0.N) (p : Fin 512) (k : Fin 2048) :
    ((cfg0.win 0).blk t).view.emb (ix2 p k) = ix2 (⟨t.val * 512 + p.val, by have := point_lt t; omega⟩ : Fin 8192) k := by
  obtain ⟨e0, e1, -⟩ := idx_facts t
  funext a; apply Fin.ext
  match a with
  | ⟨0, _⟩ => show win0_0.index t (0 : Fin 2) * 512 + 1 * p.val = t.val * 512 + p.val; omega
  | ⟨1, _⟩ => show win0_0.index t (1 : Fin 2) * 2048 + 1 * k.val = k.val; omega

/-- The weights' block is the whole array. -/
theorem emb_w (t : Fin cfg0.N) (k : Fin 2048) (q : Fin 2048) : ((cfg0.win 1).blk t).view.emb (ix2 k q) = ix2 k q := by
  obtain ⟨-, -, e0, e1, -⟩ := idx_facts t
  funext a; apply Fin.ext
  match a with
  | ⟨0, _⟩ => show win0_1.index t (0 : Fin 2) * 2048 + 1 * k.val = k.val; omega
  | ⟨1, _⟩ => show win0_1.index t (1 : Fin 2) * 2048 + 1 * q.val = q.val; omega

/-- So is the bias row's … -/
theorem emb_b (t : Fin cfg0.N) (u : Fin 1) (q : Fin 2048) : ((cfg0.win 2).blk t).view.emb (ix2 u q) = ix2 u q := by
  obtain ⟨-, -, -, -, e0, e1, -⟩ := idx_facts t
  funext a; apply Fin.ext
  match a with
  | ⟨0, _⟩ => show win0_2.index t (0 : Fin 2) * 1 + 1 * u.val = u.val; omega
  | ⟨1, _⟩ => show win0_2.index t (1 : Fin 2) * 2048 + 1 * q.val = q.val; omega

/-- … and the scale's. -/
theorem emb_s (t : Fin cfg0.N) (u v : Fin 1) : ((cfg0.win 3).blk t).view.emb (ix2 u v) = ix2 u v := by
  obtain ⟨-, -, -, -, -, -, e0, e1, -⟩ := idx_facts t
  funext a; apply Fin.ext
  match a with
  | ⟨0, _⟩ => show win0_3.index t (0 : Fin 2) * 1 + 1 * u.val = u.val; omega
  | ⟨1, _⟩ => show win0_3.index t (1 : Fin 2) * 1 + 1 * v.val = v.val; omega

/-- Row `p` of the output's block at point `t` is row `512 t + p` of the array. -/
theorem emb_o (t : Fin cfg0.N) (p : Fin 512) (q : Fin 2048) :
    ((cfg0.win 4).blk t).view.emb (ix2 p q) = ix2 (⟨t.val * 512 + p.val, by have := point_lt t; omega⟩ : Fin 8192) q := by
  obtain ⟨-, -, -, -, -, -, -, -, e0, e1⟩ := idx_facts t
  funext a; apply Fin.ext
  match a with
  | ⟨0, _⟩ => show win0_4.index t (0 : Fin 2) * 512 + 1 * p.val = t.val * 512 + p.val; omega
  | ⟨1, _⟩ => show win0_4.index t (1 : Fin 2) * 2048 + 1 * q.val = q.val; omega

/-- WHAT POINT `t` WRITES BACK is block `t` of `rowsOut` of the operand arrays as the region finds them. -/
theorem flushed_eq (c : Dev nD) (t : Fin cfg0.N) :
    (dats m 0 c).flushed 4 t
      = ((cfg0.win 4).blk t).view.read (Elt Ideal) (rowsOut (V m c main_v12) (V m c main_v9) (V m c main_v11) (V m c main_v10)) := by
  show (cfg0.win 4).cut (grid0.coords t) ((dats m 0 c).after 4 t) = _
  rw [after0_4]
  unfold out0_4
  rw [View.canon_unit_zero hz]
  simp only [View.ld_unit_zero (S := S512x2048) hz, View.ld_unit_zero (S := S2048x2048) hz, View.ld_unit_zero (S := S1x2048) hz,
    View.ld_unit_zero (S := S1x1) hz]
  funext j
  obtain ⟨p, q, rfl⟩ : ∃ (p : Fin 512) (q : Fin 2048), j = ix2 p q := ⟨j 0, j 1, eq_ix2 j⟩
  show k0_pay1 (iblk m c 0 t) (iblk m c 1 t) (iblk m c 2 t) (iblk m c 3 t) (ix2 p q)
    = rowsOut (V m c main_v12) (V m c main_v9) (V m c main_v11) (V m c main_v10) (((cfg0.win 4).blk t).view.emb (ix2 p q))
  rw [emb_o t p q, rowsOut_ix2]
  refine (pay_apply _ _ _ _ p q).trans ?_
  refine congr (congr (congrArg₂ BitLinear.outEntry (funext fun k => ?_) (funext fun k => ?_)) ?_) ?_
  · show V m c main_v12 (((cfg0.win 0).blk t).view.emb (ix2 p k)) = _
    rw [emb_x t p k]
  · show V m c main_v9 (((cfg0.win 1).blk t).view.emb (ix2 k q)) = _
    rw [emb_w t k q]
  · show V m c main_v11 (((cfg0.win 2).blk t).view.emb (ix2 (0 : Fin 1) q)) = _
    rw [emb_b t 0 q]
  · show V m c main_v10 (((cfg0.win 3).blk t).view.emb (ix2 (0 : Fin 1) (0 : Fin 1))) = _
    rw [emb_s t 0 0]

/-- An index of the output array is in point `t`'s block iff each coordinate is in the block's range on its axis. -/
theorem mem_blk (t : Fin cfg0.N) (i : S8192x2048.Idx) :
    i ∈ ((cfg0.win 4).blk t).view.set ↔ ∀ a : Fin 2, win0_4.index t a * S512x2048.size a ≤ (i a).val
      ∧ (i a).val < win0_4.index t a * S512x2048.size a + S512x2048.size a := by
  show i ∈ ((View.whole main_v13).slice (win0_4.rect t)).set ↔ _
  rw [View.set_slice_whole, Rect.mem_set_unit]
  exact Iff.rfl

/-- The sixteen blocks tile the output: row `r` is in the block of point `r / 512`. -/
theorem cover (i : S8192x2048.Idx) : ∃ t : Fin cfg0.N, (cfg0.win 4).flush t = true ∧ i ∈ ((cfg0.win 4).blk t).view.set := by
  have hi0 : (i 0).val < 8192 := (i 0).isLt
  have hi1 : (i 1).val < 2048 := (i 1).isLt
  have hN : cfg0.N = 16 := N_0
  obtain ⟨t, ht⟩ : ∃ t : Fin cfg0.N, t.val = (i 0).val / 512 := ⟨⟨(i 0).val / 512, by rw [hN]; omega⟩, rfl⟩
  obtain ⟨-, -, -, -, -, -, -, -, e0, e1⟩ := idx_facts t
  refine ⟨t, flush0_4 t, ?_⟩
  rw [mem_blk]
  intro a
  match a with
  | ⟨0, _⟩ =>
    show win0_4.index t (0 : Fin 2) * 512 ≤ (i 0).val ∧ (i 0).val < win0_4.index t (0 : Fin 2) * 512 + 512
    omega
  | ⟨1, _⟩ =>
    show win0_4.index t (1 : Fin 2) * 2048 ≤ (i 1).val ∧ (i 1).val < win0_4.index t (1 : Fin 2) * 2048 + 2048
    omega

/-- THE OUTPUT ARRAY after the region. -/
theorem final (c : Dev nD) :
    (dats m 0 c).arrAt 4 cfg0.N = rowsOut (V m c main_v12) (V m c main_v9) (V m c main_v11) (V m c main_v10) :=
  (dats m 0 c).arrAt_eq_of_cover 4 _ (fun t _ => flushed_eq m c t) cover

/-- The host's last operation reads the output array as `[4, 2048, 2048]`. -/
theorem tail_eq (c : Dev nD) :
    Pipeline.afterTail₀ cfgs (dats m) 0 (V0 m) [hostOps1] c main_v14
      = shapeCast S4x2048x2048 ((dats m 0 c).arrAt 4 cfg0.N) shapeCasts_S8192x2048_S4x2048x2048 := by
  unfold Pipeline.afterTail₀
  show StableHlo.after hostOps1 _ (Proc.devRef .tc main_v14) = _
  after_results
  exact congrArg (fun a : S8192x2048.Idx → EReal => shapeCast S4x2048x2048 a shapeCasts_S8192x2048_S4x2048x2048)
    (Pipeline.withArrays_arr spec0 launch0.win.arr_inj c (V0 m c) (fun w => (dats m 0 c).arrAt w cfg0.N) 4)

/-- THE RUN, READ: every weakly fair execution of the idealized kernel's program terminates with the result `[4, 2048, 2048]`
    the recast of `rowsOut` of the region's operand arrays, and the arguments unchanged. -/
theorem run : θ_run defs (onTc (τ := τ) (main (F := Ideal))) ⟨m, fun _ => 0, ρ⟩ fun r => ∀ c : Dev nD,
      r.2.mem ((c.tc : Thread nD τ).loc main_v14)
        = shapeCast S4x2048x2048 (rowsOut (V m c main_v12) (V m c main_v9) (V m c main_v11) (V m c main_v10))
            shapeCasts_S8192x2048_S4x2048x2048
      ∧ r.2.mem ((c.tc : Thread nD τ).loc main_arg0) = m ((c.tc : Thread nD τ).loc main_arg0)
      ∧ r.2.mem ((c.tc : Thread nD τ).loc main_arg1) = m ((c.tc : Thread nD τ).loc main_arg1)
      ∧ r.2.mem ((c.tc : Thread nD τ).loc main_arg2) = m ((c.tc : Thread nD τ).loc main_arg2) :=
  (θ_run defs _ _).mono (fun _ h c =>
    ⟨((h c).2 main_v14 (Pipeline.mem_restRefs_of main_v14 (by decide) (by decide))).trans
        ((tail_eq m c).trans (congrArg (fun a : S8192x2048.Idx → EReal => shapeCast S4x2048x2048 a shapeCasts_S8192x2048_S4x2048x2048) (final m c))),
      ((h c).2 main_arg0 (Pipeline.mem_restRefs_of main_arg0 (by decide) (by decide))).trans (W_main_arg0 m (dats m) c),
      ((h c).2 main_arg1 (Pipeline.mem_restRefs_of main_arg1 (by decide) (by decide))).trans (W_main_arg1 m (dats m) c),
      ((h c).2 main_arg2 (Pipeline.mem_restRefs_of main_arg2 (by decide) (by decide))).trans (W_main_arg2 m (dats m) c)⟩)
    (run_main m ρ)

end Cert.KernelIdeal.BlockValue

end
-- ==== Proof.WeightQuant.lean ====
/-
  The weights' side of the layer, as the host computes it before anything else, in both programs alike: the scale
  `s = max(ε, (Σ |w|) / 2²²)` of a weight matrix (the mean of the magnitudes of its 2²² entries, clipped below by `ε`), and the
  ternary weights `min(1, max(-1, roundeven(w / s)))`. Both are kept as the host's own operations, never opened: the two programs
  apply the same operations to the same argument, so the two values meet as one term.
-/
import Idealize.ShloMosaic.PureOps.Ideal
import Idealize.ShloMosaic.Lib.ValueIdx

noncomputable section

namespace Cert.BitLinear

open Idealize.ShloMosaic

variable {F : FTy → Type} [FloatOps F] {D E : ℕ}

/-- The weights' scale, a rank-0 array: `max(ε, (0 + Σ |w|) / 2²²)`. -/
def weightScale (w : FVec F ⟨2, ![D, E]⟩ .f32) (hr : (⟨2, ![D, E]⟩ : Shape).ReducesTo [0, 1] ⟨0, ![]⟩)
    (h0 : 0 < (⟨0, ![]⟩ : Shape).numel) : FVec F ⟨0, ![]⟩ .f32 :=
  maximumf (id (constant ⟨0, ![]⟩ .f32 0x3727C5AC#32))
    (Host.divf (Host.reduceAdd (Host.absf w) (constant ⟨0, ![]⟩ .f32 0x00000000#32) hr h0) (constant ⟨0, ![]⟩ .f32 0x4A800000#32))

/-- The ternary weights: `w / s` rounded to the nearest integer (ties to even) and clipped to `[-1, 1]`. -/
def ternary (w : FVec F ⟨2, ![D, E]⟩ .f32) (hr : (⟨2, ![D, E]⟩ : Shape).ReducesTo [0, 1] ⟨0, ![]⟩)
    (h0 : 0 < (⟨0, ![]⟩ : Shape).numel) (hb : (⟨0, ![]⟩ : Shape).BroadcastsInDim ⟨2, ![D, E]⟩ ![]) : FVec F ⟨2, ![D, E]⟩ .f32 :=
  minimumf (broadcastInDim ⟨2, ![D, E]⟩ ![] hb (id (constant ⟨0, ![]⟩ .f32 0x3F800000#32)))
    (maximumf (broadcastInDim ⟨2, ![D, E]⟩ ![] hb (id (constant ⟨0, ![]⟩ .f32 0xBF800000#32)))
      (Host.roundeven (Host.divf w (broadcastInDim ⟨2, ![D, E]⟩ ![] hb (weightScale w hr h0)))))

end Cert.BitLinear

end
-- ==== Proof.KernelEntry.lean ====
/-
  What the idealized kernel's region finds in its four operand arrays: each is written by the host operations before the region —
  the activations recast to `[8192, 2048]`, the bias to a row `[1, 2048]`, the weights' scale to `[1, 1]`, and the ternary weights
  transposed (and rounded to bf16, which changes nothing over the extended reals).
-/
import proofs.«141473_j46213848106050_1_alg».proof.Proof.Gen.KernelIdeal.Frame
import proofs.«141473_j46213848106050_1_alg».proof.Proof.WeightQuant
import Idealize.ShloMosaic.Lib.StableHlo.Run

set_option maxRecDepth 16384

noncomputable section

namespace Cert.KernelIdeal.Entry

open Cert.KernelIdeal Cert.KernelIdeal.Gen Idealize.ShloMosaic Idealize.ShloMosaic.TcCoe
open Idealize.SL.Sem Idealize.ShloMosaic.StableHlo

variable {F : FTy → Type} [FloatOps F] (m : (ℓ : Loc nD τ sig) → Buf (Elt F) ℓ)

/-- The activations, recast. -/
theorem V_x (c : Dev nD) :
    (V m c main_v12 : S8192x2048.Idx → Elt F .f32)
      = shapeCast S8192x2048 (m ((c : Thread nD τ).loc main_arg0)) shapeCasts_S4x2048x2048_S8192x2048 := by
  dsimp only [V, V0]
  simp only [hostOps0, hostOps0_1, hostOps0_2, hostOps0_3, hostOps0_4, hostOps0_5, hostOps0_6, List.flatten_cons, List.flatten_nil,
    List.append_nil, List.cons_append, List.nil_append]
  after_results_simp
  rfl

/-- The bias, as a row. -/
theorem V_b (c : Dev nD) :
    (V m c main_v11 : S1x2048.Idx → Elt F .f32)
      = shapeCast S1x2048 (m ((c : Thread nD τ).loc main_arg2)) shapeCasts_S2048_S1x2048 := by
  dsimp only [V, V0]
  simp only [hostOps0, hostOps0_1, hostOps0_2, hostOps0_3, hostOps0_4, hostOps0_5, hostOps0_6, List.flatten_cons, List.flatten_nil,
    List.append_nil, List.cons_append, List.nil_append]
  after_results_simp
  rfl

/-- The weights' scale, as a `[1, 1]` array. -/
theorem V_s (c : Dev nD) :
    (V m c main_v10 : S1x1.Idx → Elt F .f32)
      = shapeCast S1x1 (BitLinear.weightScale (m ((c : Thread nD τ).loc main_arg1)) reducesTo_S2048x2048_S_d0_1 h_S_) shapeCasts_S_S1x1 := by
  dsimp only [V, V0]
  simp only [hostOps0, hostOps0_1, hostOps0_2, hostOps0_3, hostOps0_4, hostOps0_5, hostOps0_6, List.flatten_cons, List.flatten_nil,
    List.append_nil, List.cons_append, List.nil_append]
  after_results_simp
  rfl

/-- The ternary weights, transposed. -/
theorem V_w (c : Dev nD) :
    (V m c main_v9 : S2048x2048.Idx → Elt F .bf16)
      = truncf .bf16 (transpose S2048x2048 [1, 0]
          (BitLinear.ternary (m ((c : Thread nD τ).loc main_arg1)) reducesTo_S2048x2048_S_d0_1 h_S_ bcast_S_S2048x2048)
          transposes_S2048x2048_S2048x2048_1_0) bitsLt_bf16_f32 := by
  dsimp only [V, V0]
  simp only [hostOps0, hostOps0_1, hostOps0_2, hostOps0_3, hostOps0_4, hostOps0_5, hostOps0_6, List.flatten_cons, List.flatten_nil,
    List.append_nil, List.cons_append, List.nil_append]
  after_results_simp
  rfl

end Cert.KernelIdeal.Entry

end
-- ==== Proof.KernelResult.lean ====
/-
  The idealized kernel's result at an index, in terms of the program's arguments: entry `(b, r, o)` of the result `[4, 2048, 2048]`
  is entry `(2048 b + r, o)` of the region's output (the final reshape keeps row-major positions), whose activations' row
  `2048 b + r` is row `(b, r)` of the argument (the first reshape), whose weight column `o` is row `o` of the ternary weights (the
  transposition), whose bias row reads the bias and whose `[1, 1]` scale reads the weights' scale.
-/
import proofs.«141473_j46213848106050_1_alg».proof.Proof.KernelValue
import proofs.«141473_j46213848106050_1_alg».proof.Proof.KernelEntry
import proofs.«141473_j46213848106050_1_alg».proof.Proof.LibRowReduce
import Idealize.ShloMosaic.Lib.ValueLayout

noncomputable section

namespace Cert.KernelIdeal.Result

open Cert.KernelIdeal Cert.KernelIdeal.Gen Idealize.ShloMosaic Idealize.ShloMosaic.TcCoe Idealize.ShloMosaic.ValueIdx
open Idealize.SL.Sem

variable (m : (ℓ : Loc nD τ sig) → Buf (Elt Ideal) ℓ)

/-- THE KERNEL at `(b, r, o)`. -/
theorem result_apply (c : Dev nD) (b : Fin 4) (r : Fin 2048) (o : Fin 2048) :
    shapeCast S4x2048x2048 (BlockValue.rowsOut (V m c main_v12) (V m c main_v9) (V m c main_v11) (V m c main_v10))
        shapeCasts_S8192x2048_S4x2048x2048 (ix3 b r o)
      = BitLinear.outEntry (fun k => m ((c : Thread nD τ).loc main_arg0) (ix3 b r k))
          (fun k => BitLinear.ternary (F := Ideal) (m ((c : Thread nD τ).loc main_arg1)) reducesTo_S2048x2048_S_d0_1 h_S_ bcast_S_S2048x2048 (ix2 o k))
          (m ((c : Thread nD τ).loc main_arg2) (ix1 o))
          (BitLinear.weightScale (F := Ideal) (m ((c : Thread nD τ).loc main_arg1)) reducesTo_S2048x2048_S_d0_1 h_S_ ix0) := by
  have hrow : b.val * 2048 + r.val < 8192 := by have := b.isLt; have := r.isLt; omega
  refine (shapeCast_apply _ shapeCasts_S8192x2048_S4x2048x2048 (ix3 b r o) (ix2 (⟨b.val * 2048 + r.val, hrow⟩ : Fin 8192) o) ?_).trans ?_
  · rw [Shape.rowMajor_val_two, Shape.rowMajor_val_three]; rfl
  rw [BlockValue.rowsOut_ix2]
  refine congr (congr (congrArg₂ BitLinear.outEntry (funext fun k => ?_) (funext fun k => ?_)) ?_) ?_
  · exact (congrFun (Entry.V_x m c) _).trans (shapeCast_apply _ shapeCasts_S4x2048x2048_S8192x2048 _ (ix3 b r k)
      (by rw [Shape.rowMajor_val_three, Shape.rowMajor_val_two]; rfl))
  · exact (congrFun (Entry.V_w m c) _).trans ((truncf_apply _ bitsLt_bf16_f32 _).trans
      (RowReduce.transpose_10_apply _ transposes_S2048x2048_S2048x2048_1_0 k o))
  · exact (congrFun (Entry.V_b m c) _).trans (shapeCast_a_1a_apply _ shapeCasts_S2048_S1x2048 0 o)
  · exact (congrFun (Entry.V_s m c) _).trans (shapeCast_apply _ shapeCasts_S_S1x1 _ ix0
      (by rw [Shape.rowMajor_val_two]; exact (Shape.rowMajorPi_zero _ _).trans rfl))

end Cert.KernelIdeal.Result

end
-- ==== Proof.RefValue.lean ====
/-
  The reference's result at an index: entry `(b, r, o)` of what the host program computes is `outEntry` of row `(b, r)` of the
  activations, row `o` of the ternary weights (the contraction runs over the weights' LAST axis), the bias at `o` and the weights'
  scale. Each row's scale is the host's max-reduction over the last axis, a fold of `max` from −∞; the keepdims column
  `[4, 2048, 1]` and its broadcasts read the row coordinates alone.
-/
import proofs.«141473_j46213848106050_1_alg».proof.Proof.RefRead
import proofs.«141473_j46213848106050_1_alg».proof.Proof.TokenQuant
import proofs.«141473_j46213848106050_1_alg».proof.Proof.WeightQuant
import proofs.«141473_j46213848106050_1_alg».proof.Proof.LibRowReduce

noncomputable section

namespace Cert.ReferenceIdeal.RefValue

open Cert.ReferenceIdeal Cert.ReferenceIdeal.Gen Cert.ReferenceIdeal.ReadP Idealize.ShloMosaic Idealize.ShloMosaic.ValueIdx

/-- The host's weights' scale and ternary weights are the shared terms. -/
theorem scale_eq {F : FTy → Type} [FloatOps F] (w : (⟨S2048x2048, .f32⟩ : BufTy).Contents (Elt F)) :
    val_main_v3 (F := F) w = BitLinear.weightScale w reducesTo_S2048x2048_S_d0_1 h_S_ := rfl

theorem ternary_eq {F : FTy → Type} [FloatOps F] (w : (⟨S2048x2048, .f32⟩ : BufTy).Contents (Elt F)) :
    val_main_v7 (F := F) w = BitLinear.ternary w reducesTo_S2048x2048_S_d0_1 h_S_ bcast_S_S2048x2048 := rfl

variable (x : (⟨S4x2048x2048, .f32⟩ : BufTy).Contents (Elt Ideal)) (w : (⟨S2048x2048, .f32⟩ : BufTy).Contents (Elt Ideal))
  (bias : (⟨S2048, .f32⟩ : BufTy).Contents (Elt Ideal))

/-- The clipped row maximum, kept as a column `[4, 2048, 1]`, at `(b, r, u)`: the scale of row `(b, r)`. -/
theorem gamma_apply (b : Fin 4) (r : Fin 2048) (u : Fin 1) :
    val_main_v11 (F := Ideal) x (ix3 b r u) = BitLinear.rowGamma fun k => x (ix3 b r k) := by
  have hi : idx_main_v10 (ix3 b r u) = ix2 b r := funext fun a => by
    match a with
    | ⟨0, _⟩ => rfl
    | ⟨1, _⟩ => rfl
  have hfold : val_main_v9 (F := Ideal) x (ix2 b r)
      = (Finset.univ : Finset (Fin 2048)).fold max (Ideal.ofBits .f32 0xFF800000#32)
          (fun k => max (x (ix3 b r k)) (-(x (ix3 b r k)))) := by
    unfold val_main_v9
    exact (RowReduce.hostReduce_maximumf_last3 (val_main_v8 (F := Ideal) x) (val_main_cst_4 (F := Ideal))
      reducesTo_S4x2048x2048_S4x2048_d2 (by decide) h_S_ b r).trans
      (congrArg₂ (fun a f => Finset.fold max a f (Finset.univ : Finset (Fin 2048)))
        ((val_main_cst_4_apply _).trans (Ideal.ofBits_def _))
        (funext fun k => (val_main_v8_apply x _).trans ((Ideal.hostAbsf_def _).trans (Ideal.absf_def _))))
  unfold BitLinear.rowGamma
  refine (val_main_v11_apply x _).trans ((Ideal.maximumf_def _ _).trans (congrArg₂ max ?_ ?_))
  · exact (val_main_call3_v1_apply _).trans ((val_main_call3_v0_apply _).trans ((val_main_cst_5_apply _).trans (Ideal.ofBits_def _)))
  · refine (val_main_v10_apply x _).trans ?_
    rw [hi]
    exact hfold

/-- The quantised activations at `(b, r, k)`. -/
theorem quant_apply (b : Fin 4) (r : Fin 2048) (k : Fin 2048) :
    val_main_v17 (F := Ideal) x (ix3 b r k) = BitLinear.quant (BitLinear.rowGamma fun k => x (ix3 b r k)) (x (ix3 b r k)) := by
  have hi : idx_main_v14 (ix3 b r k) = ix3 b r (0 : Fin 1) := funext fun a => by
    match a with
    | ⟨0, _⟩ => rfl
    | ⟨1, _⟩ => rfl
    | ⟨2, _⟩ => rfl
  have hdiv : val_main_v14 (F := Ideal) x (ix3 b r k)
      = Ideal.div (Ideal.ofBits .f32 0x43000000#32) (BitLinear.rowGamma fun k => x (ix3 b r k)) := by
    refine (val_main_v14_apply x _).trans ?_
    rw [hi]
    refine (val_main_v13_apply x _).trans ((Ideal.hostDivf_def _ _).trans (congrArg₂ Ideal.div ?_ (gamma_apply x b r 0)))
    exact (val_main_v12_apply _).trans ((val_main_cst_6_apply _).trans (Ideal.ofBits_def _))
  unfold BitLinear.quant
  refine (val_main_v17_apply x _).trans ((Ideal.minimumf_def _ _).trans (congrArg₂ min ?_ ?_))
  · exact (val_main_call5_v4_apply _).trans ((val_main_call5_v3_apply _).trans ((val_main_cst_8_apply _).trans (Ideal.ofBits_def _)))
  · refine (val_main_call5_v2_apply x _).trans ((Ideal.maximumf_def _ _).trans (congrArg₂ max ?_ ?_))
    · exact (val_main_call5_v1_apply _).trans ((val_main_call5_v0_apply _).trans ((val_main_cst_7_apply _).trans (Ideal.ofBits_def _)))
    · refine (val_main_v16_apply x _).trans ((Ideal.hostUnary_roundeven_def _).trans
        (congrArg (Ideal.liftRound Ideal.roundHalfEven) ?_))
      exact (val_main_v15_apply x _).trans ((Ideal.mulf_def _ _).trans (congrArg (x (ix3 b r k) * ·) hdiv))

/-- THE REFERENCE at `(b, r, o)`. -/
theorem ref_apply (b : Fin 4) (r : Fin 2048) (o : Fin 2048) :
    val_main_v27 (F := Ideal) x w bias (ix3 b r o)
      = BitLinear.outEntry (fun k => x (ix3 b r k))
          (fun k => BitLinear.ternary (F := Ideal) w reducesTo_S2048x2048_S_d0_1 h_S_ bcast_S_S2048x2048 (ix2 o k)) (bias (ix1 o))
          (BitLinear.weightScale (F := Ideal) w reducesTo_S2048x2048_S_d0_1 h_S_ ix0) := by
  have hl : ∀ k : Fin 2048, lidx_main_v18 (ix3 b r o) k = ix3 b r k := fun k => funext fun a => by
    match a with
    | ⟨0, _⟩ => rfl
    | ⟨1, _⟩ => rfl
    | ⟨2, _⟩ => rfl
  have hr : ∀ k : Fin 2048, ridx_main_v18 (ix3 b r o) k = ix2 o k := fun k => funext fun a => by
    match a with
    | ⟨0, _⟩ => rfl
    | ⟨1, _⟩ => rfl
  have hi : idx_main_v24 (ix3 b r o) = ix3 b r (0 : Fin 1) := funext fun a => by
    match a with
    | ⟨0, _⟩ => rfl
    | ⟨1, _⟩ => rfl
    | ⟨2, _⟩ => rfl
  have hb : idx_main_v19 (idx_main_v20 (ix3 b r o)) = ix1 o := funext fun a => by
    match a with
    | ⟨0, _⟩ => rfl
  unfold BitLinear.outEntry
  refine (val_main_v27_apply x w bias _).trans ((Ideal.hostDivf_def _ _).trans (congrArg₂ Ideal.div ?_ ?_))
  · refine (val_main_v25_apply x w bias _).trans ((Ideal.mulf_def _ _).trans (congrArg₂ (· * ·) ?_ ?_))
    · refine (val_main_v21_apply x w bias _).trans ((Ideal.addf_def _ _).trans (congrArg₂ (· + ·) ?_ ?_))
      · refine (val_main_v18_apply x w _).trans (Finset.sum_congr rfl fun k _ => ?_)
        rw [hl k, hr k, quant_apply x b r k, ternary_eq]
      · exact (val_main_v20_apply bias _).trans ((val_main_v19_apply bias _).trans (congrArg bias hb))
    · refine (val_main_v24_apply x w _).trans ?_
      rw [hi]
      refine (val_main_v23_apply x w _).trans ((Ideal.mulf_def _ _).trans (congrArg₂ (· * ·) ?_ (gamma_apply x b r 0)))
      exact (val_main_v22_apply w _).trans (congrFun (scale_eq w) _)
  · exact (val_main_v26_apply _).trans ((val_main_cst_9_apply _).trans (Ideal.ofBits_def _))

end Cert.ReferenceIdeal.RefValue

end
-- ==== Proof.lean ====
/-
  A ternary-weight, 8-bit-activation linear layer ("BitLinear"): `y = ((q(x) · tern(w)ᵀ) + bias) · (s · γ) / 128`, where
  `s = max(ε, mean |w|)` is the weights' scale, `tern(w) = min(1, max(-1, round(w / s)))` the ternary weights, `γ = max(ε, max |x|)`
  each activation row's scale and `q(x) = min(127, max(-128, round(x · (128 / γ))))` the quantised row.

  The kernel program computes `s` and `tern(w)` on the host, transposes the ternary weights, reads the activations
  `[4, 2048, 2048]` as `[8192, 2048]`, and runs one region over 16 blocks of 512 rows: each block takes its rows' scales by a lane
  maximum, quantises, multiplies on the matrix unit with the whole transposed weight matrix, adds the bias row, rescales, and the
  result is read back as `[4, 2048, 2048]`. The reference computes the same on the host with one `dot_general` contracting the
  weights' last axis. Over the extended reals every operation of one side is the same operation on the other — a change of float
  format is the identity, the matrix unit's product into a zero accumulator and the host's `dot_general` are the same finite sum
  in the same order, the lane maximum and the host's max-reduction the same fold — so the two results agree entry by entry
  (`outEntry` of row `(b, r)`, weight row `o`, the bias at `o` and the scale), with no use of the inputs' finiteness.

  The frames of the two kernel programs are the generated ones; the reference's frame is its run with the result dropped; the
  idealization rewrote nothing, so `preserves` is `True`.
-/
import proofs.«141473_j46213848106050_1_alg».proof.Defs
import proofs.«141473_j46213848106050_1_alg».proof.Proof.Gen.Kernel
import proofs.«141473_j46213848106050_1_alg».proof.Proof.Gen.Kernel.Skeleton
import proofs.«141473_j46213848106050_1_alg».proof.Proof.Gen.Kernel.Launch
import proofs.«141473_j46213848106050_1_alg».proof.Proof.Gen.Kernel.Points
import proofs.«141473_j46213848106050_1_alg».proof.Proof.Gen.Kernel.Frame
import proofs.«141473_j46213848106050_1_alg».proof.Proof.Gen.KernelIdeal
import proofs.«141473_j46213848106050_1_alg».proof.Proof.Gen.KernelIdeal.Skeleton
import proofs.«141473_j46213848106050_1_alg».proof.Proof.Gen.KernelIdeal.Launch
import proofs.«141473_j46213848106050_1_alg».proof.Proof.Gen.KernelIdeal.Points
import proofs.«141473_j46213848106050_1_alg».proof.Proof.Gen.KernelIdeal.Frame
import proofs.«141473_j46213848106050_1_alg».proof.Proof.Gen.ReferenceIdeal
import proofs.«141473_j46213848106050_1_alg».proof.Proof.Gen.Pre_finite_inputs
import proofs.«141473_j46213848106050_1_alg».proof.Proof.KernelResult
import proofs.«141473_j46213848106050_1_alg».proof.Proof.RefValue
import Idealize.ShloMosaic.Adequacy
import Idealize.ShloMosaic.Init

noncomputable section

namespace Cert.Proof

open Idealize.ShloMosaic Idealize.ShloMosaic.ValueIdx Idealize.SL.Sem

theorem frame_k : Cert.frame_Kernel := fun m ρ _ => Cert.Kernel.Gen.frame m ρ

theorem frame_ki : Cert.frame_KernelIdeal := fun m ρ _ => Cert.KernelIdeal.Gen.frame m ρ

/-- The reference's frame: its run, the result's value dropped. -/
theorem frame_ri : Cert.frame_ReferenceIdeal := fun m ρ _ =>
  (θ_run Cert.ReferenceIdeal.defs _ _).mono (fun _ h c => (h c).2) (Cert.ReferenceIdeal.RefRun.run (F := Ideal) m ρ)

/-- Over the extended reals the kernel's result and the reference's, from memories that agree on the three arguments, are one
    array: at every `(b, r, o)` both are `outEntry` of the activations' row `(b, r)`, the ternary weights' row `o`, the bias at `o`
    and the weights' scale. -/
theorem algebraic : Cert.algebraic_KernelIdeal_ReferenceIdeal := by
  intro m ρ m' ρ' _ hagree
  refine ⟨_, Cert.KernelIdeal.BlockValue.run m ρ, ?_⟩
  refine (θ_run Cert.ReferenceIdeal.defs _ _).mono (fun _ h c => ⟨(h c).1.trans ?_, (h c).2⟩)
    (Cert.ReferenceIdeal.RefRun.run (F := Ideal) m' ρ')
  rw [(hagree c).1, (hagree c).2.1, (hagree c).2.2]
  refine (Cert.ReferenceIdeal.ReadP.val_main_v27_eq _ _ _).trans ?_
  funext i
  obtain ⟨b, r, o, rfl⟩ : ∃ (b : Fin 4) (r : Fin 2048) (o : Fin 2048), i = ix3 b r o := ⟨i 0, i 1, i 2, eq_ix3 i⟩
  exact (Cert.ReferenceIdeal.RefValue.ref_apply _ _ _ b r o).trans (Cert.KernelIdeal.Result.result_apply m c b r o).symm

theorem claim : Cert.Claim := ⟨Cert.Kernel.Gen.facts, Cert.KernelIdeal.Gen.facts, Cert.ReferenceIdeal.Gen.facts, Cert.Pre_finite_inputs.Gen.facts,
  frame_k, frame_ki, frame_ri, trivial, algebraic⟩

end Cert.Proof

end
